-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S3x64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S5000x64 : Shape := ⟨2, ![5000, 64]⟩

abbrev nBuf : Space → Nat
  | .hbm => 92
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64x64, .f32⟩
  | .hbm, ⟨75, _⟩ => ⟨S64x64, .f32⟩
  | .hbm, ⟨76, _⟩ => ⟨S1x64x64, .f32⟩
  | .hbm, ⟨77, _⟩ => ⟨S64x64, .f32⟩
  | .hbm, ⟨78, _⟩ => ⟨S64x64, .f32⟩
  | .hbm, ⟨79, _⟩ => ⟨S1x64x64, .f32⟩
  | .hbm, ⟨80, _⟩ => ⟨S64x64, .f32⟩
  | .hbm, ⟨81, _⟩ => ⟨S1x64x64, .f32⟩
  | .hbm, ⟨82, _⟩ => ⟨S64x64, .f32⟩
  | .hbm, ⟨83, _⟩ => ⟨S_, .f32⟩
  | .hbm, ⟨84, _⟩ => ⟨S64x64, .f32⟩
  | .hbm, ⟨85, _⟩ => ⟨S64x64, .f32⟩
  | .hbm, ⟨86, _⟩ => ⟨S1x64x64, .f32⟩
  | .hbm, ⟨87, _⟩ => ⟨S1x64x64, .f32⟩
  | .hbm, ⟨88, _⟩ => ⟨S1x64x64, .f32⟩
  | .hbm, ⟨89, _⟩ => ⟨S3x64x64, .f32⟩
  | .hbm, ⟨90, _⟩ => ⟨S1x64, .f32⟩
  | .hbm, ⟨91, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64x64_S1x64x64_2_0_0 : S3x64x64.Slices ![2, 0, 0] S1x64x64
  slices_S3x64x64_S1x64x64_1_0_0 : S3x64x64.Slices ![1, 0, 0] S1x64x64
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  concatenates_S1x64x64_S1x64x64_S1x64x64_S3x64x64_d0 : Shape.Concatenates [S1x64x64, S1x64x64, S1x64x64] S3x64x64 0
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v70) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S1x64x64, .f32⟩
  | .hbm, ⟨43, _⟩ => ⟨S64x64, .f32⟩
  | .hbm, ⟨44, _⟩ => ⟨S50000x64, .f32⟩
  | .hbm, ⟨45, _⟩ => ⟨S800000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S1x64x64, .f32⟩
  | .hbm, ⟨62, _⟩ => ⟨S64x64, .f32⟩
  | .hbm, ⟨63, _⟩ => ⟨S50000x64, .f32⟩
  | .hbm, ⟨64, _⟩ => ⟨S50000x64, .f32⟩
  | .hbm, ⟨65, _⟩ => ⟨S800000x1, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x64, .f32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S1x64x64, .f32⟩
  | .hbm, ⟨86, _⟩ => ⟨S64x64, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call1_cst : Ref sig .tc := ⟨.hbm, 92, rfl⟩
abbrev main_call1_v0 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.FrameKData.lean ====
/- The data of the frame argument for the Chebyshev convolution's one pipelined region: the contents of
   every array when the region is entered, the block each of the six windows shows at a grid point, the
   value the body leaves in the output window's buffer as a function of the five input blocks, and the
   per-core proof data assembled from them. The run itself is in FrameK. -/
import proofs.«145639_j26611617366463_2_alg».proof.Proof.Gen.Kernel.Launch
import proofs.«145639_j26611617366463_2_alg».proof.Proof.Gen.Kernel.Skeleton
import proofs.«145639_j26611617366463_2_alg».proof.Proof.Gen.Kernel.Points
import Idealize.ShloMosaic.Lib.Pipeline.FrameBody
import Idealize.ShloMosaic.Lib.Ring
import Idealize.ShloMosaic.Lib.Tactic

-- deciding membership in a rectangle of 5000 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- On core `c`, what each TensorCore array holds once the 86 host statements have run: the three
    stretches (the statements before the call of `@_where`, its three statements, the statements after it)
    applied in order to the launch memory. -/
abbrev V (c : Dev nD) (b : Ref sig .tc) : Buf (Elt F) ((c : Thread nD τ).loc b) :=
  StableHlo.after (List.flatten [hostOps0, hostOps0_1, hostOps0_2]) (fun b => m (c, b)) b

/-! ## The windows' blocks -/

/-- The block window `w` shows at grid point `t`: its index map's rectangle of the array, read off the
    array's contents at region entry. For windows 0, 1, 2 and 5 this is rows `5000 t … 5000 t + 4999`; for
    windows 3 and 4 the whole array at every point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body touches -/

/-- All of a `5000 × 64` row block. -/
abbrev rowsAll : Rect S5000x64 := Rect.unit (s := S5000x64) ![0, 0] S5000x64.size inb_S5000x64_S5000x64_0_0
/-- The `1 × 64 × 64` slabs of the stacked weights: rows 0, 1 and 2 of the leading axis. -/
abbrev slab0 : Rect S3x64x64 := Rect.unit (s := S3x64x64) ![0, 0, 0] S1x64x64.size inb_S3x64x64_S1x64x64_0_0_0
abbrev slab1 : Rect S3x64x64 := Rect.unit (s := S3x64x64) ![1, 0, 0] S1x64x64.size inb_S3x64x64_S1x64x64_1_0_0
abbrev slab2 : Rect S3x64x64 := Rect.unit (s := S3x64x64) ![2, 0, 0] S1x64x64.size inb_S3x64x64_S1x64x64_2_0_0
/-- All of the `1 × 64` bias row. -/
abbrev biasAll : Rect S1x64 := Rect.unit (s := S1x64) ![0, 0] S1x64.size inb_S1x64_S1x64_0_0

/-! ## What the body leaves in the output window -/

/-- The output buffer after the body, from the five input blocks `x0 … x4`: the body's single store
    covers the whole `5000 × 64` block, and stores the payload of the seven values it loaded — the three
    row blocks whole, the three weight slabs, the bias row. The earlier contents of the buffer do not
    enter: the body loads them but the payload has no argument for them. -/
def out5 (x0 x1 x2 : Vec F S5000x64 .f32) (x3 : Vec F S3x64x64 .f32) (x4 : Vec F S1x64 .f32) : Vec F S5000x64 .f32 :=
  View.canon [⟨rowsAll, k0_pay1 (View.ld x0 rowsAll) (View.ld x1 rowsAll) (View.ld x2 rowsAll)
    (View.ld x3 slab0) (View.ld x3 slab1) (View.ld x3 slab2) (View.ld x4 biasAll)⟩]

/-! ## The proof data -/

/-- The proof data of the pipeline on core `c`. The arrays are the region-entry contents. After the body
    at point `t`, an input window's buffer still holds its block (the body stores into the output buffer
    only), and the output window's buffer holds `out5` of the five input blocks. The invariant is the
    class's (scratch and generator register untouched), every share is full, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents: a projection of the definition, so the long
    fold `V` is never opened to see it. -/
theorem A_eq (c : Dev nD) (w : Fin cfg0.W) : (dats m 0 c).A w = V m c (Pipeline.arrRef spec0 w) := by
  dsimp only [dats]

/-- What the body leaves, window by window: the case split of `dats` at each literal window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) (iblk m c 3 t) (iblk m c 4 t) := by
  dsimp only [dats]

end Cert.Kernel.Hand

end
-- ==== Proof.FrameK.lean ====
/- The frame of the Chebyshev convolution's program: the run of @main — 86 host statements, then one
   pipelined region of ten grid points over six windows — terminates without fault, leaves every array
   of the region at what the proof data of FrameKData computes, and leaves the five argument arrays as
   they were launched. -/
import proofs.«145639_j26611617366463_2_alg».proof.Proof.FrameKData

-- deciding membership in a rectangle of 5000 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host statement allocates: each is a pure assignment to a buffer the signature already has. -/
theorem stretch0_alloc_free : (hostOps0 : List (HloOp τ sig (Elt F))).Forall fun op => op.fresh = ∅ := by
  simp only [List.Forall]; repeat' constructor
theorem stretch1_alloc_free : (hostOps0_1 : List (HloOp τ sig (Elt F))).Forall fun op => op.fresh = ∅ := by
  simp only [List.Forall]; repeat' constructor
set_option maxHeartbeats 4000000 in
theorem stretch2_alloc_free : (hostOps0_2 : List (HloOp τ sig (Elt F))).Forall fun op => op.fresh = ∅ := by
  simp only [List.Forall]; repeat' constructor

/-- @main is its three stretches of host statements followed by the region; so when the region is
    entered core `c` holds `V m c`, whatever variant table `𝒱₀` the run is read at. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_alloc_free, stretch1_alloc_free, stretch2_alloc_free⟩) main_chain

/-! ## The arguments are never assigned

Each of the 86 statements writes exactly its own result buffer (the concatenation included: it writes
`main_v68` only), and no result buffer is an argument: so at region entry every argument holds what it was
launched with. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))

/-! ## Every input window's buffer holds its block when the body is called

An input window's current staging buffer holds the window's block at the point — at a point where
the window is fetched because the fetch just put it there, and at a point where it is not (windows 3
and 4 after the first point) because the block index has not moved since the last fetch and the body
leaves the buffer as it found it. Stated for any proof data over the region-entry arrays (`hA`) whose
body leaves the input in place (`hafter`). -/

/-- Input window 0 (rows `5000 t …` of `main_arg0`, fetched at every point). -/
theorem holds_block_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1 (rows `5000 t …` of `main_v40`, fetched at every point). -/
theorem holds_block_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2 (rows `5000 t …` of `main_v53`, fetched at every point). -/
theorem holds_block_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3 (the whole of `main_v68`, fetched at the first point only). -/
theorem holds_block_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4 (the whole of `main_v69`, fetched at the first point only). -/
theorem holds_block_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The body's one store covers the output block -/

/-- The stored rectangle is the whole `5000 × 64` block: one tile of the block's own size. -/
theorem store_covers (p : Vec F S5000x64 .f32) (y : S5000x64.Idx) :
    ∃ pc ∈ ([⟨rowsAll, p⟩] : List (View.Piece (Elt F) S5000x64 .f32)), y ∈ pc.1.set :=
  View.cover_of_tiled [⟨rowsAll, p⟩] S5000x64.size (by rfl) y

/-! ## The body's triple -/

set_option maxHeartbeats 2000000 in
/-- The body on six whole staging memrefs — the five inputs' at read contents `x0 … x4`, the output's at
    anything — runs to a continuation that is handed the inputs as they were and the output at
    `out5 x0 … x4`. The body is its skeleton: seven loads from the inputs, one load of the output buffer
    whose value nothing uses, one store of the payload over the whole output buffer; the store's rectangle
    covers the buffer, so what it leaves does not depend on what the buffer held. -/
theorem sound_kernel (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S3x64x64 .f32) (harg4 : arg4.IsWhole)
    (arg5 : Memref sig .tc .vmem S1x64 .f32) (harg5 : arg5.IsWhole) (arg6 : Memref sig .tc .vmem S5000x64 .f32) (harg6 : arg6.IsWhole)
    (x0 x1 x2 : Vec F S5000x64 .f32) (x3 : Vec F S3x64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__cheb_dense_kernel i arg1 harg1 arg2 harg2 arg3 harg3 arg4 harg4 arg5 harg5 arg6 harg6) K := by
  simp only [cc0__cheb_dense_kernel_eq_skeleton]; unfold cc0__cheb_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The body obligation -/

/-- Each input's current staging buffer holds its block at every point. -/
theorem before0_0 (c : Dev nD) (t : Fin cfg0.N) (d) : (dats m 0 c).before 0 t d = iblk m c 0 t :=
  holds_block_0 m (dats m 0 c) (A_eq m c 0) (after0_0 m c) t d
theorem before0_1 (c : Dev nD) (t : Fin cfg0.N) (d) : (dats m 0 c).before 1 t d = iblk m c 1 t :=
  holds_block_1 m (dats m 0 c) (A_eq m c 1) (after0_1 m c) t d
theorem before0_2 (c : Dev nD) (t : Fin cfg0.N) (d) : (dats m 0 c).before 2 t d = iblk m c 2 t :=
  holds_block_2 m (dats m 0 c) (A_eq m c 2) (after0_2 m c) t d
theorem before0_3 (c : Dev nD) (t : Fin cfg0.N) (d) : (dats m 0 c).before 3 t d = iblk m c 3 t :=
  holds_block_3 m (dats m 0 c) (A_eq m c 3) (after0_3 m c) t d
theorem before0_4 (c : Dev nD) (t : Fin cfg0.N) (d) : (dats m 0 c).before 4 t d = iblk m c 4 t :=
  holds_block_4 m (dats m 0 c) (A_eq m c 4) (after0_4 m c) t d

/-- What the pipeline hands the body at point `t`: the invariant, the core's debts, and each window's
    current staging buffer at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, so the body's triple applies at
    those blocks; the invariant and the debts are constant in the point and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point: the conjunction over the six windows written out. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement below,
-- which needs plain definitions unfolded inside a metavariable's type
set_option backward.isDefEq.respectTransparency.types false in
/-- From any memory with zero semaphores, every weakly fair execution of @main on the TensorCores
    terminates; in every final state each array of the region holds what the proof data computes and
    every other unscoped buffer holds what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The five argument arrays end as launched. `main_arg0` is window 0's array, an input: the region
    leaves an input array at its region-entry contents. The other four are staged by no window: they bypass
    the region. In both cases the region-entry contents are the launch contents (`V_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Hand

end
-- ==== Proof.FrameKIData.lean ====
/- The data of the frame argument for the Chebyshev convolution's one pipelined region: the contents of
   every array when the region is entered, the block each of the six windows shows at a grid point, the
   value the body leaves in the output window's buffer as a function of the five input blocks, and the
   per-core proof data assembled from them. The run itself is in FrameKI. -/
import proofs.«145639_j26611617366463_2_alg».proof.Proof.Gen.KernelIdeal.Launch
import proofs.«145639_j26611617366463_2_alg».proof.Proof.Gen.KernelIdeal.Skeleton
import proofs.«145639_j26611617366463_2_alg».proof.Proof.Gen.KernelIdeal.Points
import Idealize.ShloMosaic.Lib.Pipeline.FrameBody
import Idealize.ShloMosaic.Lib.Ring
import Idealize.ShloMosaic.Lib.Tactic

-- deciding membership in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- On core `c`, what each TensorCore array holds once the 86 host statements have run: the three
    stretches (the statements before the call of `@_where`, its three statements, the statements after it)
    applied in order to the launch memory. -/
abbrev V (c : Dev nD) (b : Ref sig .tc) : Buf (Elt F) ((c : Thread nD τ).loc b) :=
  StableHlo.after (List.flatten [hostOps0, hostOps0_1, hostOps0_2]) (fun b => m (c, b)) b

/-! ## The windows' blocks -/

/-- The block window `w` shows at grid point `t`: its index map's rectangle of the array, read off the
    array's contents at region entry. For windows 0, 1, 2 and 5 this is rows `5000 t … 5000 t + 4999`; for
    windows 3 and 4 the whole array at every point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body touches -/

/-- All of a `5000 × 64` row block. -/
abbrev rowsAll : Rect S5000x64 := Rect.unit (s := S5000x64) ![0, 0] S5000x64.size inb_S5000x64_S5000x64_0_0
/-- The `1 × 64 × 64` slabs of the stacked weights: rows 0, 1 and 2 of the leading axis. -/
abbrev slab0 : Rect S3x64x64 := Rect.unit (s := S3x64x64) ![0, 0, 0] S1x64x64.size inb_S3x64x64_S1x64x64_0_0_0
abbrev slab1 : Rect S3x64x64 := Rect.unit (s := S3x64x64) ![1, 0, 0] S1x64x64.size inb_S3x64x64_S1x64x64_1_0_0
abbrev slab2 : Rect S3x64x64 := Rect.unit (s := S3x64x64) ![2, 0, 0] S1x64x64.size inb_S3x64x64_S1x64x64_2_0_0
/-- All of the `1 × 64` bias row. -/
abbrev biasAll : Rect S1x64 := Rect.unit (s := S1x64) ![0, 0] S1x64.size inb_S1x64_S1x64_0_0

/-! ## What the body leaves in the output window -/

/-- The output buffer after the body, from the five input blocks `x0 … x4`: the body's single store
    covers the whole `5000 × 64` block, and stores the payload of the seven values it loaded — the three
    row blocks whole, the three weight slabs, the bias row. The earlier contents of the buffer do not
    enter: the body loads them but the payload has no argument for them. -/
def out5 (x0 x1 x2 : Vec F S5000x64 .f32) (x3 : Vec F S3x64x64 .f32) (x4 : Vec F S1x64 .f32) : Vec F S5000x64 .f32 :=
  View.canon [⟨rowsAll, k0_pay1 (View.ld x0 rowsAll) (View.ld x1 rowsAll) (View.ld x2 rowsAll)
    (View.ld x3 slab0) (View.ld x3 slab1) (View.ld x3 slab2) (View.ld x4 biasAll)⟩]

/-! ## The proof data -/

/-- The proof data of the pipeline on core `c`. The arrays are the region-entry contents. After the body
    at point `t`, an input window's buffer still holds its block (the body stores into the output buffer
    only), and the output window's buffer holds `out5` of the five input blocks. The invariant is the
    class's (scratch and generator register untouched), every share is full, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents: a projection of the definition, so the long
    fold `V` is never opened to see it. -/
theorem A_eq (c : Dev nD) (w : Fin cfg0.W) : (dats m 0 c).A w = V m c (Pipeline.arrRef spec0 w) := by
  dsimp only [dats]

/-- What the body leaves, window by window: the case split of `dats` at each literal window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) (iblk m c 3 t) (iblk m c 4 t) := by
  dsimp only [dats]

end Cert.KernelIdeal.Hand

end
-- ==== Proof.FrameKI.lean ====
/- The frame of the Chebyshev convolution's program: the run of @main — 86 host statements, then one
   pipelined region of ten grid points over six windows — terminates without fault, leaves every array
   of the region at what the proof data of FrameKIData computes, and leaves the five argument arrays as
   they were launched. -/
import proofs.«145639_j26611617366463_2_alg».proof.Proof.FrameKIData

-- deciding membership in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host statement allocates: each is a pure assignment to a buffer the signature already has. -/
theorem stretch0_alloc_free : (hostOps0 : List (HloOp τ sig (Elt F))).Forall fun op => op.fresh = ∅ := by
  simp only [List.Forall]; repeat' constructor
theorem stretch1_alloc_free : (hostOps0_1 : List (HloOp τ sig (Elt F))).Forall fun op => op.fresh = ∅ := by
  simp only [List.Forall]; repeat' constructor
set_option maxHeartbeats 4000000 in
theorem stretch2_alloc_free : (hostOps0_2 : List (HloOp τ sig (Elt F))).Forall fun op => op.fresh = ∅ := by
  simp only [List.Forall]; repeat' constructor

/-- @main is its three stretches of host statements followed by the region; so when the region is
    entered core `c` holds `V m c`, whatever variant table `𝒱₀` the run is read at. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_alloc_free, stretch1_alloc_free, stretch2_alloc_free⟩) main_chain

/-! ## The arguments are never assigned

Each of the 86 statements writes exactly its own result buffer (the concatenation included: it writes
`main_v68` only), and no result buffer is an argument: so at region entry every argument holds what it was
launched with. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.ternary, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))

/-! ## Every input window's buffer holds its block when the body is called

An input window's current staging buffer holds the window's block at the point — at a point where
the window is fetched because the fetch just put it there, and at a point where it is not (windows 3
and 4 after the first point) because the block index has not moved since the last fetch and the body
leaves the buffer as it found it. Stated for any proof data over the region-entry arrays (`hA`) whose
body leaves the input in place (`hafter`). -/

/-- Input window 0 (rows `5000 t …` of `main_arg0`, fetched at every point). -/
theorem holds_block_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1 (rows `5000 t …` of `main_v40`, fetched at every point). -/
theorem holds_block_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2 (rows `5000 t …` of `main_v53`, fetched at every point). -/
theorem holds_block_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3 (the whole of `main_v68`, fetched at the first point only). -/
theorem holds_block_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4 (the whole of `main_v69`, fetched at the first point only). -/
theorem holds_block_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The body's one store covers the output block -/

/-- The stored rectangle is the whole `5000 × 64` block: one tile of the block's own size. -/
theorem store_covers (p : Vec F S5000x64 .f32) (y : S5000x64.Idx) :
    ∃ pc ∈ ([⟨rowsAll, p⟩] : List (View.Piece (Elt F) S5000x64 .f32)), y ∈ pc.1.set :=
  View.cover_of_tiled [⟨rowsAll, p⟩] S5000x64.size (by rfl) y

/-! ## The body's triple -/

set_option maxHeartbeats 2000000 in
/-- The body on six whole staging memrefs — the five inputs' at read contents `x0 … x4`, the output's at
    anything — runs to a continuation that is handed the inputs as they were and the output at
    `out5 x0 … x4`. The body is its skeleton: seven loads from the inputs, one load of the output buffer
    whose value nothing uses, one store of the payload over the whole output buffer; the store's rectangle
    covers the buffer, so what it leaves does not depend on what the buffer held. -/
theorem sound_kernel (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S3x64x64 .f32) (harg4 : arg4.IsWhole)
    (arg5 : Memref sig .tc .vmem S1x64 .f32) (harg5 : arg5.IsWhole) (arg6 : Memref sig .tc .vmem S5000x64 .f32) (harg6 : arg6.IsWhole)
    (x0 x1 x2 : Vec F S5000x64 .f32) (x3 : Vec F S3x64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__cheb_dense_kernel i arg1 harg1 arg2 harg2 arg3 harg3 arg4 harg4 arg5 harg5 arg6 harg6) K := by
  simp only [cc0__cheb_dense_kernel_eq_skeleton]; unfold cc0__cheb_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The body obligation -/

/-- Each input's current staging buffer holds its block at every point. -/
theorem before0_0 (c : Dev nD) (t : Fin cfg0.N) (d) : (dats m 0 c).before 0 t d = iblk m c 0 t :=
  holds_block_0 m (dats m 0 c) (A_eq m c 0) (after0_0 m c) t d
theorem before0_1 (c : Dev nD) (t : Fin cfg0.N) (d) : (dats m 0 c).before 1 t d = iblk m c 1 t :=
  holds_block_1 m (dats m 0 c) (A_eq m c 1) (after0_1 m c) t d
theorem before0_2 (c : Dev nD) (t : Fin cfg0.N) (d) : (dats m 0 c).before 2 t d = iblk m c 2 t :=
  holds_block_2 m (dats m 0 c) (A_eq m c 2) (after0_2 m c) t d
theorem before0_3 (c : Dev nD) (t : Fin cfg0.N) (d) : (dats m 0 c).before 3 t d = iblk m c 3 t :=
  holds_block_3 m (dats m 0 c) (A_eq m c 3) (after0_3 m c) t d
theorem before0_4 (c : Dev nD) (t : Fin cfg0.N) (d) : (dats m 0 c).before 4 t d = iblk m c 4 t :=
  holds_block_4 m (dats m 0 c) (A_eq m c 4) (after0_4 m c) t d

/-- What the pipeline hands the body at point `t`: the invariant, the core's debts, and each window's
    current staging buffer at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, so the body's triple applies at
    those blocks; the invariant and the debts are constant in the point and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point: the conjunction over the six windows written out. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement below,
-- which needs plain definitions unfolded inside a metavariable's type
set_option backward.isDefEq.respectTransparency.types false in
/-- From any memory with zero semaphores, every weakly fair execution of @main on the TensorCores
    terminates; in every final state each array of the region holds what the proof data computes and
    every other unscoped buffer holds what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The five argument arrays end as launched. `main_arg0` is window 0's array, an input: the region
    leaves an input array at its region-entry contents. The other four are staged by no window: they bypass
    the region. In both cases the region-entry contents are the launch contents (`V_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Hand

end
-- ==== Proof.FramePostKI.lean ====
/- The frame run's post read at the arrays a value claim speaks of: the result array `main_v70` holds
   what the proof data accumulates over the ten write-backs, and each of the five argument arrays holds
   what it was launched with. -/
import proofs.«145639_j26611617366463_2_alg».proof.Proof.FrameKI

-- deciding membership in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array -/

/-- `main_v70` is window 5's array, the region's one output: in a final state it holds the proof data's
    array contents after all `cfg0.N` points. -/
theorem post_main_v70 (r : PUnit × MemSt nD τ sig (Elt F)) (h : Pipeline.FramePost cfgs (dats m) 0 (V m) r) (c : Dev nD) :
    r.2.mem ((c : Thread nD τ).loc main_v70) = (dats m 0 c).arrAt 5 cfg0.N :=
  (h c).1 5

/-! ## The argument arrays -/

/-- `main_arg0` is window 0's array, an input: the region leaves an input array at its region-entry
    contents, which are the launch contents since no host statement assigns an argument. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- `main_arg1 … main_arg4` are staged by no window (the region reads the edge list, the edge weights,
    the weights and the bias only through arrays the host statements derived from them): they are unscoped
    buffers outside the region, so they end at their region-entry contents, which are the launch contents. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

end Cert.KernelIdeal.Hand

end
-- ==== Proof.PayloadEntry.lean ====
import proofs.«145639_j26611617366463_2_alg».proof.Proof.Gen.KernelIdeal.Skeleton
import Idealize.ShloMosaic.Lib.ValueIdx
import Idealize.ShloMosaic.Lib.Pipeline.Value
import Idealize.ShloMosaic.PureOps.Ideal.Laws

/-!
# The kernel's stored block at one entry

At a grid point the body holds a block of 5000 rows of each of `x`, `T₁`, `P₁`, the three 64×64
slabs `A₀, A₁, A₂` of the stacked weights and the bias row. What it stores at row `p`, column `q` of
its block is `max (((x·A₀)[p,q] + (T₁·A₁)[p,q]) + (P₁·A₂)[p,q] + b[q]) 0`: the changes of float format
are the identity on extended reals, each product enters a zero accumulator, and the bias row is
repeated down the rows.
-/

noncomputable section

namespace Cert.Cheb

open Idealize.ShloMosaic Idealize.ShloMosaic.ValueIdx
open Cert.KernelIdeal Cert.KernelIdeal.Gen

theorem dotK_lhs0 (i : S5000x64.Idx) (s : dot_S5000x64_S64x64_S5000x64_1_0_0_1_n_n.contr.Idx) : (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem dotK_rhs1 (i : S5000x64.Idx) (s : dot_S5000x64_S64x64_S5000x64_1_0_0_1_n_n.contr.Idx) : (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block of rows times a 64×64 matrix, into a zero accumulator: entry `(p, q)` is the sum over the
    64 contracted positions. -/
theorem dot_entry {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  show FloatOps.matmul dot_S5000x64_S64x64_S5000x64_1_0_0_1_n_n none a w (constant S5000x64 .f32 0x00000000#32) (ix2 p q) = _
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact dotK_lhs0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ => exact dotK_rhs1 _ _)
  rw [el, er]

/-- A one-slab stack of matrices, flattened, read at `(k, q)`. -/
theorem slab_entry {α : Type} (w : S1x64x64.Idx → α) (k q : Fin 64) :
    shapeCast S64x64 w shapeCasts_S1x64x64_S64x64 (ix2 k q) = w (ix3 (0 : Fin 1) k q) :=
  shapeCast_apply w shapeCasts_S1x64x64_S64x64 (ix2 k q) (ix3 (0 : Fin 1) k q) (by
    rw [Shape.rowMajor_val_three, Shape.rowMajor_val_two]
    show (0 * 64 + k.val) * 64 + q.val = k.val * 64 + q.val
    omega)

/-- The bias row repeated down the 5000 rows, read at `(p, q)`. -/
theorem bias_entry (bb : Vec Ideal S1x64 .f32) (p : Fin 5000) (q : Fin 64) :
    broadcastTo S5000x64 (shapeCast S1x64 bb shapeCasts_S1x64_S1x64) broadcasts_S1x64_S5000x64 (ix2 p q)
      = bb (ix2 (0 : Fin 1) q) := by
  rw [shapeCast_self]
  exact broadcastTo_apply bb broadcasts_S1x64_S5000x64 (ix2 p q) (ix2 (0 : Fin 1) q) (fun a => by
    match a with
    | ⟨0, _⟩ => show 0 = if (1 : Nat) = 1 then 0 else _; rw [if_pos rfl]
    | ⟨1, _⟩ => show q.val = if (64 : Nat) = 1 then 0 else q.val; rw [if_neg (by decide)])

/-- What the body stores at row `p`, column `q` of its block. -/
theorem payload_entry (x0 x1 x2 : Vec Ideal S5000x64 .f32) (w0 w1 w2 : Vec Ideal S1x64x64 .f32) (bb : Vec Ideal S1x64 .f32)
    (p : Fin 5000) (q : Fin 64) :
    k0_pay1 (F := Ideal) x0 x1 x2 w0 w1 w2 bb (ix2 p q)
      = max ((((∑ k : Fin 64, x0 (ix2 p k) * w0 (ix3 (0 : Fin 1) k q))
              + ∑ k : Fin 64, x1 (ix2 p k) * w1 (ix3 (0 : Fin 1) k q))
              + ∑ k : Fin 64, x2 (ix2 p k) * w2 (ix3 (0 : Fin 1) k q))
              + bb (ix2 (0 : Fin 1) q)) (Ideal.ofBits .f32 0x00000000#32) := by
  unfold k0_pay1
  rw [maximumf_apply, addf_apply, addf_apply, addf_apply, dot_entry, dot_entry, dot_entry, bias_entry, broadcast_apply]
  simp only [truncf_apply, shapeCast_self, slab_entry, Ideal.ofBits_def]

end Cert.Cheb

end
-- ==== Proof.ChebOut.lean ====
import proofs.«145639_j26611617366463_2_alg».proof.KernelIdeal
import Idealize.ShloMosaic.Lib.ValueIdx
import Idealize.ShloMosaic.PureOps.Ideal

/-!
# The kernel's output as one function of the five arrays the region reads

At row `r`, column `q`: `max (((X·A₀)[r,q] + (T·A₁)[r,q]) + (P·A₂)[r,q] + B[q]) 0`, with `A₀, A₁, A₂`
the three 64×64 slabs of the stacked matrices and each product a sum over the 64 contracted columns.
-/

noncomputable section

namespace Cert.Cheb

open Idealize.ShloMosaic Idealize.ShloMosaic.ValueIdx
open Cert.KernelIdeal

/-- The row and the column of an entry of a `50000 × 64` array. -/
abbrev rowOf (i : S50000x64.Idx) : Fin 50000 := ⟨(i 0).val, (i 0).isLt⟩
abbrev colOf (i : S50000x64.Idx) : Fin 64 := ⟨(i 1).val, (i 1).isLt⟩

/-- The output as one function of the five arrays. -/
def chebOut (X T P : S50000x64.Idx → EReal) (A : S3x64x64.Idx → EReal) (B : S1x64.Idx → EReal) :
    S50000x64.Idx → EReal := fun i =>
  max ((((∑ k : Fin 64, X (ix2 (rowOf i) k) * A (ix3 (0 : Fin 3) k (colOf i)))
          + ∑ k : Fin 64, T (ix2 (rowOf i) k) * A (ix3 (1 : Fin 3) k (colOf i)))
          + ∑ k : Fin 64, P (ix2 (rowOf i) k) * A (ix3 (2 : Fin 3) k (colOf i)))
          + B (ix2 (0 : Fin 1) (colOf i))) (Ideal.ofBits .f32 0x00000000#32)

theorem chebOut_entry (X T P : S50000x64.Idx → EReal) (A : S3x64x64.Idx → EReal) (B : S1x64.Idx → EReal)
    (r : Fin 50000) (q : Fin 64) :
    chebOut X T P A B (ix2 r q)
      = max ((((∑ k : Fin 64, X (ix2 r k) * A (ix3 (0 : Fin 3) k q))
          + ∑ k : Fin 64, T (ix2 r k) * A (ix3 (1 : Fin 3) k q))
          + ∑ k : Fin 64, P (ix2 r k) * A (ix3 (2 : Fin 3) k q))
          + B (ix2 (0 : Fin 1) q)) (Ideal.ofBits .f32 0x00000000#32) := rfl

/-- Two `50000 × 64` arrays agreeing at every `(r, q)` are equal; likewise two `5000 × 64` blocks. -/
theorem arr_ext (f g : S50000x64.Idx → EReal) (h : ∀ (r : Fin 50000) (q : Fin 64), f (ix2 r q) = g (ix2 r q)) : f = g :=
  funext fun y => by rw [eq_ix2 y]; exact h _ _
theorem block_ext (f g : S5000x64.Idx → EReal) (h : ∀ (p : Fin 5000) (q : Fin 64), f (ix2 p q) = g (ix2 p q)) : f = g :=
  funext fun y => by rw [eq_ix2 y]; exact h _ _

end Cert.Cheb

end
-- ==== Proof.BlockArray.lean ====
import proofs.«145639_j26611617366463_2_alg».proof.Proof.FrameKIData
import proofs.«145639_j26611617366463_2_alg».proof.Proof.PayloadEntry
import proofs.«145639_j26611617366463_2_alg».proof.Proof.ChebOut
import Idealize.ShloMosaic.Lib.Pipeline.Value

/-!
# From the blocks to the whole output array

Grid point `t` (of ten) sees rows `5000 t … 5000 t + 4999` of `x`, `T₁`, `P₁` and of the output, and
the whole of the stacked matrices and of the bias row. So what it writes back is rows
`5000 t … 5000 t + 4999` of ONE function of the five arrays (`chebOut`), and since the ten blocks tile
the 50000 rows, after the region the output array is that function.
-/

set_option maxRecDepth 16384

noncomputable section

namespace Cert.Cheb

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

theorem zeros2 : (![0, 0] : Fin 2 → Nat) = fun _ => 0 := funext fun a => by fin_cases a <;> rfl

/-- Row `p` of the block at grid point `t` is row `5000 t + p` of the array. -/
def rowAt (t : Fin cfg0.N) (p : Fin 5000) : Fin 50000 :=
  ⟨t.val * 5000 + p.val, by have ht : t.val < 10 := lt_of_lt_of_eq t.isLt N_0; have hp := p.isLt; omega⟩

/-- Window 0 shows rows `5000 t … 5000 t + 4999` of its array. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem emb0 (t : Fin cfg0.N) (p : Fin 5000) (k : Fin 64) :
    ((cfg0.win 0).blk t).view.emb (ix2 p k) = ix2 (rowAt t p) k :=
  funext fun a => Fin.ext (by
    obtain ⟨e0, e1⟩ := idx0 t
    match a with
    | ⟨0, _⟩ => show win0_0.index t (0 : Fin 2) * 5000 + 1 * p.val = t.val * 5000 + p.val; rw [e0]; omega
    | ⟨1, _⟩ => show win0_0.index t (1 : Fin 2) * 64 + 1 * k.val = k.val; rw [e1]; omega)

/-- Window 1 shows rows `5000 t … 5000 t + 4999` of its array. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem emb1 (t : Fin cfg0.N) (p : Fin 5000) (k : Fin 64) :
    ((cfg0.win 1).blk t).view.emb (ix2 p k) = ix2 (rowAt t p) k :=
  funext fun a => Fin.ext (by
    obtain ⟨e0, e1⟩ := idx1 t
    match a with
    | ⟨0, _⟩ => show win0_1.index t (0 : Fin 2) * 5000 + 1 * p.val = t.val * 5000 + p.val; rw [e0]; omega
    | ⟨1, _⟩ => show win0_1.index t (1 : Fin 2) * 64 + 1 * k.val = k.val; rw [e1]; omega)

/-- Window 2 shows rows `5000 t … 5000 t + 4999` of its array. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem emb2 (t : Fin cfg0.N) (p : Fin 5000) (k : Fin 64) :
    ((cfg0.win 2).blk t).view.emb (ix2 p k) = ix2 (rowAt t p) k :=
  funext fun a => Fin.ext (by
    obtain ⟨e0, e1⟩ := idx2 t
    match a with
    | ⟨0, _⟩ => show win0_2.index t (0 : Fin 2) * 5000 + 1 * p.val = t.val * 5000 + p.val; rw [e0]; omega
    | ⟨1, _⟩ => show win0_2.index t (1 : Fin 2) * 64 + 1 * k.val = k.val; rw [e1]; omega)

/-- Window 5 shows rows `5000 t … 5000 t + 4999` of its array. -/
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem emb5 (t : Fin cfg0.N) (p : Fin 5000) (k : Fin 64) :
    ((cfg0.win 5).blk t).view.emb (ix2 p k) = ix2 (rowAt t p) k :=
  funext fun a => Fin.ext (by
    obtain ⟨e0, e1⟩ := idx5 t
    match a with
    | ⟨0, _⟩ => show win0_5.index t (0 : Fin 2) * 5000 + 1 * p.val = t.val * 5000 + p.val; rw [e0]; omega
    | ⟨1, _⟩ => show win0_5.index t (1 : Fin 2) * 64 + 1 * k.val = k.val; rw [e1]; omega)

/-- The weight window shows the whole stack at every point, the bias window the whole row. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb3 (t : Fin cfg0.N) (j : Fin 3) (k q : Fin 64) :
    ((cfg0.win 3).blk t).view.emb (ix3 j k q) = ix3 j k q :=
  funext fun a => Fin.ext (by
    obtain ⟨e0, e1, e2⟩ := idx3 t
    match a with
    | ⟨0, _⟩ => show win0_3.index t (0 : Fin 3) * 3 + 1 * j.val = j.val; rw [e0]; omega
    | ⟨1, _⟩ => show win0_3.index t (1 : Fin 3) * 64 + 1 * k.val = k.val; rw [e1]; omega
    | ⟨2, _⟩ => show win0_3.index t (2 : Fin 3) * 64 + 1 * q.val = q.val; rw [e2]; omega)
theorem emb4 (t : Fin cfg0.N) (q : Fin 64) :
    ((cfg0.win 4).blk t).view.emb (ix2 (0 : Fin 1) q) = ix2 (0 : Fin 1) q :=
  funext fun a => Fin.ext (by
    obtain ⟨e0, e1⟩ := idx4 t
    match a with
    | ⟨0, _⟩ => show win0_4.index t (0 : Fin 2) * 1 + 1 * 0 = 0; rw [e0]
    | ⟨1, _⟩ => show win0_4.index t (1 : Fin 2) * 64 + 1 * q.val = q.val; rw [e1]; omega)

/-! ## Reading an array through a window's block -/

theorem read0 (t : Fin cfg0.N) (f : S50000x64.Idx → EReal) (p : Fin 5000) (k : Fin 64) :
    ((cfg0.win 0).blk t).view.read (Elt Ideal) f (ix2 p k) = f (ix2 (rowAt t p) k) := by
  rw [View.read_apply, emb0]
  rfl

theorem read1 (t : Fin cfg0.N) (f : S50000x64.Idx → EReal) (p : Fin 5000) (k : Fin 64) :
    ((cfg0.win 1).blk t).view.read (Elt Ideal) f (ix2 p k) = f (ix2 (rowAt t p) k) := by
  rw [View.read_apply, emb1]
  rfl

theorem read2 (t : Fin cfg0.N) (f : S50000x64.Idx → EReal) (p : Fin 5000) (k : Fin 64) :
    ((cfg0.win 2).blk t).view.read (Elt Ideal) f (ix2 p k) = f (ix2 (rowAt t p) k) := by
  rw [View.read_apply, emb2]
  rfl

theorem read5 (t : Fin cfg0.N) (f : S50000x64.Idx → EReal) (p : Fin 5000) (k : Fin 64) :
    ((cfg0.win 5).blk t).view.read (Elt Ideal) f (ix2 p k) = f (ix2 (rowAt t p) k) := by
  rw [View.read_apply, emb5]
  rfl

theorem read3 (t : Fin cfg0.N) (f : S3x64x64.Idx → EReal) (j : Fin 3) (k q : Fin 64) :
    ((cfg0.win 3).blk t).view.read (Elt Ideal) f (ix3 j k q) = f (ix3 j k q) := by
  rw [View.read_apply, emb3]
  rfl
theorem read4 (t : Fin cfg0.N) (f : S1x64.Idx → EReal) (q : Fin 64) :
    ((cfg0.win 4).blk t).view.read (Elt Ideal) f (ix2 (0 : Fin 1) q) = f (ix2 (0 : Fin 1) q) := by
  rw [View.read_apply, emb4]
  rfl

/-- Slab `j` of a stack of three matrices, read at `(k, q)`, is the stack's entry `(j, k, q)`. -/
theorem slab0_emb (k q : Fin 64) : slab0.emb (ix3 (0 : Fin 1) k q) = ix3 (0 : Fin 3) k q :=
  funext fun a => Fin.ext (by
    match a with
    | ⟨0, _⟩ => show 0 + 1 * 0 = 0; rfl
    | ⟨1, _⟩ => show 0 + 1 * k.val = k.val; omega
    | ⟨2, _⟩ => show 0 + 1 * q.val = q.val; omega)
theorem slab1_emb (k q : Fin 64) : slab1.emb (ix3 (0 : Fin 1) k q) = ix3 (1 : Fin 3) k q :=
  funext fun a => Fin.ext (by
    match a with
    | ⟨0, _⟩ => show 1 + 1 * 0 = 1; rfl
    | ⟨1, _⟩ => show 0 + 1 * k.val = k.val; omega
    | ⟨2, _⟩ => show 0 + 1 * q.val = q.val; omega)
theorem slab2_emb (k q : Fin 64) : slab2.emb (ix3 (0 : Fin 1) k q) = ix3 (2 : Fin 3) k q :=
  funext fun a => Fin.ext (by
    match a with
    | ⟨0, _⟩ => show 2 + 1 * 0 = 2; rfl
    | ⟨1, _⟩ => show 0 + 1 * k.val = k.val; omega
    | ⟨2, _⟩ => show 0 + 1 * q.val = q.val; omega)
theorem ld_slab0 (X : S3x64x64.Idx → Elt Ideal .f32) (k q : Fin 64) :
    View.ld (Val := Elt Ideal) (e' := .f32) X slab0 (ix3 (0 : Fin 1) k q) = X (ix3 (0 : Fin 3) k q) := by
  show X (slab0.emb (ix3 (0 : Fin 1) k q)) = _
  rw [slab0_emb]
theorem ld_slab1 (X : S3x64x64.Idx → Elt Ideal .f32) (k q : Fin 64) :
    View.ld (Val := Elt Ideal) (e' := .f32) X slab1 (ix3 (0 : Fin 1) k q) = X (ix3 (1 : Fin 3) k q) := by
  show X (slab1.emb (ix3 (0 : Fin 1) k q)) = _
  rw [slab1_emb]
theorem ld_slab2 (X : S3x64x64.Idx → Elt Ideal .f32) (k q : Fin 64) :
    View.ld (Val := Elt Ideal) (e' := .f32) X slab2 (ix3 (0 : Fin 1) k q) = X (ix3 (2 : Fin 3) k q) := by
  show X (slab2.emb (ix3 (0 : Fin 1) k q)) = _
  rw [slab2_emb]

/-- Three summands may be replaced by equals under the bias and the rectifier. -/
theorem max_sum3_congr (a a' b b' c c' : EReal) (ha : a = a') (hb : b = b') (hc : c = c') (d z : EReal) :
    max (((a + b) + c) + d) z = max (((a' + b') + c') + d) z := by
  subst ha hb hc; rfl

/-- For ANY contents `A0 … A4` of the five input arrays: the body's result on their blocks at point `t` is
    the block at `t` of `chebOut A0 … A4`. -/
theorem block_core (t : Fin cfg0.N) (A0 A1 A2 : S50000x64.Idx → EReal) (A3 : S3x64x64.Idx → EReal)
    (A4 : S1x64.Idx → EReal) :
    out5 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4)
      = ((cfg0.win 5).blk t).view.read (Elt Ideal) (chebOut A0 A1 A2 A3 A4) := by
  unfold out5
  rw [View.canon_unit_zero zeros2]
  simp only [View.ld_unit_zero (S := S5000x64) zeros2, View.ld_unit_zero (S := S1x64) zeros2]
  refine block_ext _ _ fun p q => ?_
  refine (payload_entry _ _ _ _ _ _ _ p q).trans ?_
  rw [read5, chebOut_entry, read4]
  refine max_sum3_congr _ _ _ _ _ _ ?_ ?_ ?_ _ _
  · exact Finset.sum_congr rfl fun k _ => by rw [read0, ld_slab0, read3]
  · exact Finset.sum_congr rfl fun k _ => by rw [read1, ld_slab1, read3]
  · exact Finset.sum_congr rfl fun k _ => by rw [read2, ld_slab2, read3]

variable (m : (ℓ : Loc nD τ sig) → Buf (Elt Ideal) ℓ)

/-- WHAT GRID POINT `t` WRITES BACK is its block of rows of `chebOut` of the arrays the region finds. -/
theorem flushed5_eq (c : Dev nD) (t : Fin cfg0.N) :
    (dats m 0 c).flushed 5 t = ((cfg0.win 5).blk t).view.read (Elt Ideal)
      (chebOut (V m c (Pipeline.arrRef spec0 0)) (V m c (Pipeline.arrRef spec0 1)) (V m c (Pipeline.arrRef spec0 2))
        (V m c (Pipeline.arrRef spec0 3)) (V m c (Pipeline.arrRef spec0 4))) := by
  show (cfg0.win 5).cut (grid0.coords t) ((dats m 0 c).after 5 t) = _
  rw [after0_5]
  exact block_core t _ _ _ _ _

/-- The ten blocks tile the rows: row `r` is in the block of point `r / 5000`. -/
theorem mem_blk5 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v70).slice (win0_5.rect t)).set ↔ _
  rw [View.set_slice_whole, Rect.mem_set_unit]
  exact Iff.rfl

theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  let t : Fin cfg0.N := ⟨(i 0).val / 5000, by show (i 0).val / 5000 < grid0.N; rw [N_0]; omega⟩
  refine ⟨t, flush0_5 t, ?_⟩
  rw [mem_blk5]
  obtain ⟨e0, e1⟩ := idx5 t
  have ht : t.val = (i 0).val / 5000 := rfl
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- THE OUTPUT ARRAY after the region. -/
theorem final5 (c : Dev nD) :
    (dats m 0 c).arrAt 5 cfg0.N
      = chebOut (V m c (Pipeline.arrRef spec0 0)) (V m c (Pipeline.arrRef spec0 1)) (V m c (Pipeline.arrRef spec0 2))
        (V m c (Pipeline.arrRef spec0 3)) (V m c (Pipeline.arrRef spec0 4)) :=
  (dats m 0 c).arrAt_eq_of_cover 5 _ (fun t _ => flushed5_eq m c t) cover5

end Cert.Cheb

end
-- ==== Proof.HostValues.lean ====
import proofs.«145639_j26611617366463_2_alg».proof.Proof.FrameKIData
import proofs.«145639_j26611617366463_2_alg».proof.Proof.Gen.ReferenceIdeal.Read
import Idealize.ShloMosaic.Lib.StableHlo.Run

/-!
# What the region finds in the arrays the host statements wrote

Before the region, the host statements compute `T₁` (one application of the normalised graph Laplacian to
the node features `x`) and `P₁` (its application to `T₁`) by the same operations, in the same order, as
the reference's run: the second and third windows' arrays ARE the reference's named stages of the same
arguments, at any reading of the floats. The bias window's array is `b` as one row.
-/

set_option maxRecDepth 8192

noncomputable section

namespace Cert.Cheb

open Idealize.ShloMosaic Idealize.ShloMosaic.TcCoe Idealize.ShloMosaic.StableHlo Idealize.SL.Sem
open Cert.KernelIdeal Cert.KernelIdeal.Gen Cert.KernelIdeal.Hand

variable {F : FTy → Type} [FloatOps F] (m : (ℓ : Loc nD τ sig) → Buf (Elt F) ℓ)

set_option maxHeartbeats 4000000 in
/-- The second window's array is the reference's `T₁` of the same arguments. -/
theorem V_v40 (c : Dev nD) :
    (V m c main_v40 : (⟨S50000x64, .f32⟩ : BufTy).Contents (Elt F))
      = Cert.ReferenceIdeal.Read.val_main_v43 (F := F) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6, Cert.ReferenceIdeal.Read.val_main_cst_0, Cert.ReferenceIdeal.Read.val_main_v7, Cert.ReferenceIdeal.Read.val_main_v8, Cert.ReferenceIdeal.Read.val_main_v9, Cert.ReferenceIdeal.Read.val_main_cst_1, Cert.ReferenceIdeal.Read.val_main_call0_v0, Cert.ReferenceIdeal.Read.val_main_call0_v1, Cert.ReferenceIdeal.Read.val_main_v10, Cert.ReferenceIdeal.Read.val_main_c, Cert.ReferenceIdeal.Read.val_main_v11, Cert.ReferenceIdeal.Read.val_main_v12, Cert.ReferenceIdeal.Read.val_main_c_2, Cert.ReferenceIdeal.Read.val_main_v13, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_c_3, Cert.ReferenceIdeal.Read.val_main_v20, Cert.ReferenceIdeal.Read.val_main_v21, Cert.ReferenceIdeal.Read.val_main_c_4, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_v31, Cert.ReferenceIdeal.Read.val_main_c_5, Cert.ReferenceIdeal.Read.val_main_v32, Cert.ReferenceIdeal.Read.val_main_v33, Cert.ReferenceIdeal.Read.val_main_c_6, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_cst_7, Cert.ReferenceIdeal.Read.val_main_v41, Cert.ReferenceIdeal.Read.val_main_v42, Cert.ReferenceIdeal.Read.val_main_v43, Cert.ReferenceIdeal.Read.val_main_v48, Cert.ReferenceIdeal.Read.val_main_c_8, Cert.ReferenceIdeal.Read.val_main_v49, Cert.ReferenceIdeal.Read.val_main_v50, Cert.ReferenceIdeal.Read.val_main_c_9, Cert.ReferenceIdeal.Read.val_main_v51, Cert.ReferenceIdeal.Read.val_main_v52, Cert.ReferenceIdeal.Read.val_main_v53, Cert.ReferenceIdeal.Read.val_main_v54, Cert.ReferenceIdeal.Read.val_main_v55, Cert.ReferenceIdeal.Read.val_main_v56, Cert.ReferenceIdeal.Read.val_main_v57, Cert.ReferenceIdeal.Read.val_main_cst_10, Cert.ReferenceIdeal.Read.val_main_v58, Cert.ReferenceIdeal.Read.val_main_v59, Cert.ReferenceIdeal.Read.val_main_v60]
  rfl

set_option maxHeartbeats 4000000 in
/-- The third window's array is the reference's `P₁` of the same arguments. -/
theorem V_v53 (c : Dev nD) :
    (V m c main_v53 : (⟨S50000x64, .f32⟩ : BufTy).Contents (Elt F))
      = Cert.ReferenceIdeal.Read.val_main_v60 (F := F) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6, Cert.ReferenceIdeal.Read.val_main_cst_0, Cert.ReferenceIdeal.Read.val_main_v7, Cert.ReferenceIdeal.Read.val_main_v8, Cert.ReferenceIdeal.Read.val_main_v9, Cert.ReferenceIdeal.Read.val_main_cst_1, Cert.ReferenceIdeal.Read.val_main_call0_v0, Cert.ReferenceIdeal.Read.val_main_call0_v1, Cert.ReferenceIdeal.Read.val_main_v10, Cert.ReferenceIdeal.Read.val_main_c, Cert.ReferenceIdeal.Read.val_main_v11, Cert.ReferenceIdeal.Read.val_main_v12, Cert.ReferenceIdeal.Read.val_main_c_2, Cert.ReferenceIdeal.Read.val_main_v13, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_c_3, Cert.ReferenceIdeal.Read.val_main_v20, Cert.ReferenceIdeal.Read.val_main_v21, Cert.ReferenceIdeal.Read.val_main_c_4, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_v31, Cert.ReferenceIdeal.Read.val_main_c_5, Cert.ReferenceIdeal.Read.val_main_v32, Cert.ReferenceIdeal.Read.val_main_v33, Cert.ReferenceIdeal.Read.val_main_c_6, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_cst_7, Cert.ReferenceIdeal.Read.val_main_v41, Cert.ReferenceIdeal.Read.val_main_v42, Cert.ReferenceIdeal.Read.val_main_v43, Cert.ReferenceIdeal.Read.val_main_v48, Cert.ReferenceIdeal.Read.val_main_c_8, Cert.ReferenceIdeal.Read.val_main_v49, Cert.ReferenceIdeal.Read.val_main_v50, Cert.ReferenceIdeal.Read.val_main_c_9, Cert.ReferenceIdeal.Read.val_main_v51, Cert.ReferenceIdeal.Read.val_main_v52, Cert.ReferenceIdeal.Read.val_main_v53, Cert.ReferenceIdeal.Read.val_main_v54, Cert.ReferenceIdeal.Read.val_main_v55, Cert.ReferenceIdeal.Read.val_main_v56, Cert.ReferenceIdeal.Read.val_main_v57, Cert.ReferenceIdeal.Read.val_main_cst_10, Cert.ReferenceIdeal.Read.val_main_v58, Cert.ReferenceIdeal.Read.val_main_v59, Cert.ReferenceIdeal.Read.val_main_v60]
  rfl

set_option maxHeartbeats 4000000 in
/-- The bias window's array is `b` as one row. -/
theorem V_v69 (c : Dev nD) :
    (V m c main_v69 : (⟨S1x64, .f32⟩ : BufTy).Contents (Elt F))
      = shapeCast S1x64 (m ((c : Thread nD τ).loc main_arg4) : (⟨S64, .f32⟩ : BufTy).Contents (Elt F)) shapeCasts_S64_S1x64 := by
  dsimp only [V]
  simp only [hostOps0, hostOps0_1, hostOps0_2, List.flatten_cons, List.flatten_nil, List.append_nil, List.cons_append,
    List.nil_append]
  after_results_simp
  rfl

end Cert.Cheb

end
-- ==== Proof.HostWeights.lean ====
/- The stacked weights the region finds in `main_v68`, entry by entry, in terms of the weight argument
   `W = main_arg3` of shape `3 × 64 × 64`: slab 0 is `W₀ - W₂`, slab 1 is `W₁`, slab 2 is `2 · W₂` — the
   Chebyshev recombination `x W₀ + (L x) W₁ + (2 L (L x) - x) W₂ = x (W₀ - W₂) + (L x) W₁ + (L (L x)) (2 W₂)`
   done once on the weights by the host statements. -/
import proofs.«145639_j26611617366463_2_alg».proof.Proof.FrameKIData
import Idealize.ShloMosaic.Lib.StableHlo.Run
import Idealize.ShloMosaic.Lib.Pipeline.Value
import Idealize.ShloMosaic.Lib.ValueIdx

noncomputable section

namespace Cert.Cheb

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-! ## A three-operand statement's result -/

/-- A statement with the literal operand family `![x, a, b]` leaves in its result buffer its function of
    the three operands' contents, each read at its own reference. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The concatenation statement of this program, with each operand read at its own reference: the general
    lemma at the literal family, the projections at `0, 1, 2` computed. -/
theorem stack_result' {F : FTy → Type} [FloatOps F] (hxs hy) (G : Valuation τ sig (Elt F)) :
    (nary (τ := τ) ![main_v65, main_v66, main_v67] main_v68
        (fun u => concatenate S3x64x64 0 [⟨S1x64x64, u 0⟩, ⟨S1x64x64, u 1⟩, ⟨S1x64x64, u 2⟩] concatenates_S1x64x64_S1x64x64_S1x64x64_S3x64x64_d0)
        hxs hy).result G (no_index (Proc.devRef .tc main_v68))
      = concatenate S3x64x64 0 [⟨S1x64x64, G (Proc.devRef .tc main_v65)⟩, ⟨S1x64x64, G (Proc.devRef .tc main_v66)⟩,
          ⟨S1x64x64, G (Proc.devRef .tc main_v67)⟩] concatenates_S1x64x64_S1x64x64_S1x64x64_S3x64x64_d0 :=
  nary3_result' _ hxs hy G

variable (m : (ℓ : Loc nD τ sig) → Buf (Elt Ideal) ℓ)

/-! ## The stacked weights as one expression of the weight argument -/

/-- Slab `j` of the weights as a `64 × 64` matrix: the slice at leading coordinate `j`, its unit axis dropped. -/
def slabMat0 (W : FVec Ideal S3x64x64 .f32) : FVec Ideal S64x64 .f32 :=
  shapeCast S64x64 (extractStridedSlice S1x64x64 ![0, 0, 0] W slices_S3x64x64_S1x64x64_0_0_0) shapeCasts_S1x64x64_S64x64
def slabMat1 (W : FVec Ideal S3x64x64 .f32) : FVec Ideal S64x64 .f32 :=
  shapeCast S64x64 (extractStridedSlice S1x64x64 ![1, 0, 0] W slices_S3x64x64_S1x64x64_1_0_0) shapeCasts_S1x64x64_S64x64
def slabMat2 (W : FVec Ideal S3x64x64 .f32) : FVec Ideal S64x64 .f32 :=
  shapeCast S64x64 (extractStridedSlice S1x64x64 ![2, 0, 0] W slices_S3x64x64_S1x64x64_2_0_0) shapeCasts_S1x64x64_S64x64

/-- A `64 × 64` matrix given back its unit leading axis. -/
def asSlab (A : FVec Ideal S64x64 .f32) : FVec Ideal S1x64x64 .f32 :=
  broadcastInDim S1x64x64 ![1, 2] bcast_S64x64_S1x64x64_1_2 A

/-- The constant matrix of twos. -/
def twos : FVec Ideal S64x64 .f32 :=
  broadcastInDim S64x64 ![] bcast_S_S64x64 (constant (F := Ideal) S_ .f32 0x40000000#32)

/-- The three pieces, each a `1 × 64 × 64` slab. -/
abbrev pieces (W : FVec Ideal S3x64x64 .f32) : List ((s : Shape) × (s.Idx → Ideal .f32)) :=
  [⟨S1x64x64, asSlab (subf (slabMat0 W) (slabMat2 W))⟩, ⟨S1x64x64, asSlab (slabMat1 W)⟩, ⟨S1x64x64, asSlab (mulf twos (slabMat2 W))⟩]

/-- What statements 54 … 68 compute from the weight argument: the three slabs `W₀ - W₂`, `W₁`, `2 · W₂`
    stacked along the leading axis. -/
def stacked (W : FVec Ideal S3x64x64 .f32) : FVec Ideal S3x64x64 .f32 :=
  concatenate S3x64x64 0 (pieces W) concatenates_S1x64x64_S1x64x64_S1x64x64_S3x64x64_d0

set_option maxHeartbeats 4000000 in
/-- At region entry `main_v68` holds `stacked` of the launch contents of `main_arg3`: the 86 statements are
    folded in order, each read at its own result buffer as its function's value and skipped at every other
    buffer; only the slices of `main_arg3`, their reshapes, the subtraction, the doubling, the three
    re-expansions and the concatenation reach `main_v68`. -/
theorem V_v68_eq (c : Dev nD) : V m c main_v68 = stacked (m ((c : Thread nD τ).loc main_arg3)) := by
  dsimp only [V]
  simp only [hostOps0, hostOps0_1, hostOps0_2, StableHlo.TRef.unary, StableHlo.TRef.ternary, List.flatten_cons, List.flatten_nil,
    List.append_nil, List.cons_append, List.nil_append]
  simp (disch := decide) only [after_cons, after_nil,
    nullary_result', unary_result', binary_result', ternary_result', quaternary_result', reshape_result', stack_result',
    nullary_result_ne', unary_result_ne', binary_result_ne', ternary_result_ne', quaternary_result_ne', reshape_result_ne',
    nary_result_ne']
  rfl

/-! ## The layout steps at an index

Each step reads ONE entry of its operand; the entry is named as a tuple of coordinates and the
coordinates' arithmetic is checked axis by axis. -/

/-- Entry `(k, q)` of slab `j` as a matrix is entry `(j, k, q)` of the weights: the reshape keeps the
    row-major position `64 k + q`, the slice shifts the leading coordinate by `j`. -/
theorem slabMat0_apply (W : FVec Ideal S3x64x64 .f32) (k q : Fin 64) :
    slabMat0 W (ix2 k q) = W (ix3 (0 : Fin 3) k q) := by
  unfold slabMat0
  refine (shapeCast_apply _ shapeCasts_S1x64x64_S64x64 (ix2 k q) (ix3 (0 : Fin 1) k q) ?_).trans ?_
  · rewrite [Shape.rowMajor_val_three, Shape.rowMajor_val_two]
    show (0 * 64 + k.val) * 64 + q.val = k.val * 64 + q.val
    omega
  · exact extractStridedSlice_apply ![0, 0, 0] W slices_S3x64x64_S1x64x64_0_0_0 (ix3 (0 : Fin 1) k q) (ix3 (0 : Fin 3) k q)
      (fun a => match a with
        | ⟨0, _⟩ => by show (0 : Nat) = 0 + 0; rfl
        | ⟨1, _⟩ => by show k.val = 0 + k.val; omega
        | ⟨2, _⟩ => by show q.val = 0 + q.val; omega)
theorem slabMat1_apply (W : FVec Ideal S3x64x64 .f32) (k q : Fin 64) :
    slabMat1 W (ix2 k q) = W (ix3 (1 : Fin 3) k q) := by
  unfold slabMat1
  refine (shapeCast_apply _ shapeCasts_S1x64x64_S64x64 (ix2 k q) (ix3 (0 : Fin 1) k q) ?_).trans ?_
  · rewrite [Shape.rowMajor_val_three, Shape.rowMajor_val_two]
    show (0 * 64 + k.val) * 64 + q.val = k.val * 64 + q.val
    omega
  · exact extractStridedSlice_apply ![1, 0, 0] W slices_S3x64x64_S1x64x64_1_0_0 (ix3 (0 : Fin 1) k q) (ix3 (1 : Fin 3) k q)
      (fun a => match a with
        | ⟨0, _⟩ => by show (1 : Nat) = 1 + 0; rfl
        | ⟨1, _⟩ => by show k.val = 0 + k.val; omega
        | ⟨2, _⟩ => by show q.val = 0 + q.val; omega)
theorem slabMat2_apply (W : FVec Ideal S3x64x64 .f32) (k q : Fin 64) :
    slabMat2 W (ix2 k q) = W (ix3 (2 : Fin 3) k q) := by
  unfold slabMat2
  refine (shapeCast_apply _ shapeCasts_S1x64x64_S64x64 (ix2 k q) (ix3 (0 : Fin 1) k q) ?_).trans ?_
  · rewrite [Shape.rowMajor_val_three, Shape.rowMajor_val_two]
    show (0 * 64 + k.val) * 64 + q.val = k.val * 64 + q.val
    omega
  · exact extractStridedSlice_apply ![2, 0, 0] W slices_S3x64x64_S1x64x64_2_0_0 (ix3 (0 : Fin 1) k q) (ix3 (2 : Fin 3) k q)
      (fun a => match a with
        | ⟨0, _⟩ => by show (2 : Nat) = 2 + 0; rfl
        | ⟨1, _⟩ => by show k.val = 0 + k.val; omega
        | ⟨2, _⟩ => by show q.val = 0 + q.val; omega)

/-- Entry `(0, k, q)` of a matrix given a unit leading axis is its entry `(k, q)`. -/
theorem asSlab_apply (A : FVec Ideal S64x64 .f32) (k q : Fin 64) : asSlab A (ix3 (0 : Fin 1) k q) = A (ix2 k q) := by
  unfold asSlab
  exact broadcastInDim_apply _ bcast_S64x64_S1x64x64_1_2 A (ix3 (0 : Fin 1) k q) (ix2 k q) (fun a => match a with
    | ⟨0, _⟩ => by show k.val = if (64 : Nat) = 1 then 0 else k.val; rw [if_neg (by decide)]
    | ⟨1, _⟩ => by show q.val = if (64 : Nat) = 1 then 0 else q.val; rw [if_neg (by decide)])

/-- Every entry of the constant matrix is the scalar `2`. -/
theorem twos_apply (k q : Fin 64) : twos (ix2 k q) = Ideal.ofBits .f32 0x40000000#32 := by
  unfold twos
  exact (broadcastInDim_apply _ bcast_S_S64x64 _ (ix2 k q) ix0 (fun a => a.elim0)).trans (constant_apply _ _)

/-- Entry `(j, k, q)` of the stack is entry `(0, k, q)` of its `j`-th piece: along the leading axis the
    pieces have extent one each, so `j` pieces precede piece `j`. -/
theorem stacked_piece0 (W : FVec Ideal S3x64x64 .f32) (k q : Fin 64) :
    stacked W (ix3 (0 : Fin 3) k q) = asSlab (subf (slabMat0 W) (slabMat2 W)) (ix3 (0 : Fin 1) k q) := by
  unfold stacked
  exact concatenate_apply_piece (0 : Fin S3x64x64.rank) (pieces W) concatenates_S1x64x64_S1x64x64_S1x64x64_S3x64x64_d0 (ix3 (0 : Fin 3) k q)
    0 (by show (0 : Nat) < 3; omega) S1x64x64 _ rfl rfl 0 rfl (ix3 (0 : Fin 1) k q)
    (fun b hb => match b, hb with
      | ⟨0, _⟩, hb => absurd rfl hb
      | ⟨1, _⟩, _ => rfl
      | ⟨2, _⟩, _ => rfl)
    rfl
theorem stacked_piece1 (W : FVec Ideal S3x64x64 .f32) (k q : Fin 64) :
    stacked W (ix3 (1 : Fin 3) k q) = asSlab (slabMat1 W) (ix3 (0 : Fin 1) k q) := by
  unfold stacked
  exact concatenate_apply_piece (0 : Fin S3x64x64.rank) (pieces W) concatenates_S1x64x64_S1x64x64_S1x64x64_S3x64x64_d0 (ix3 (1 : Fin 3) k q)
    1 (by show (1 : Nat) < 3; omega) S1x64x64 _ rfl rfl 1 rfl (ix3 (0 : Fin 1) k q)
    (fun b hb => match b, hb with
      | ⟨0, _⟩, hb => absurd rfl hb
      | ⟨1, _⟩, _ => rfl
      | ⟨2, _⟩, _ => rfl)
    rfl
theorem stacked_piece2 (W : FVec Ideal S3x64x64 .f32) (k q : Fin 64) :
    stacked W (ix3 (2 : Fin 3) k q) = asSlab (mulf twos (slabMat2 W)) (ix3 (0 : Fin 1) k q) := by
  unfold stacked
  exact concatenate_apply_piece (0 : Fin S3x64x64.rank) (pieces W) concatenates_S1x64x64_S1x64x64_S1x64x64_S3x64x64_d0 (ix3 (2 : Fin 3) k q)
    2 (by show (2 : Nat) < 3; omega) S1x64x64 _ rfl rfl 2 rfl (ix3 (0 : Fin 1) k q)
    (fun b hb => match b, hb with
      | ⟨0, _⟩, hb => absurd rfl hb
      | ⟨1, _⟩, _ => rfl
      | ⟨2, _⟩, _ => rfl)
    rfl

/-! ## The stacked weights, entry by entry -/

/-- Slab 0 of `main_v68` is `W₀ - W₂`, `W` the launch contents of `main_arg3`. -/
theorem V_v68_0 (c : Dev nD) (k q : Fin 64) (W : S3x64x64.Idx → EReal) (hW : m ((c : Thread nD τ).loc main_arg3) = W) :
    (V m c main_v68 : S3x64x64.Idx → EReal) (ix3 (0 : Fin 3) k q) = W (ix3 (0 : Fin 3) k q) - W (ix3 (2 : Fin 3) k q) := by
  subst hW
  rw [V_v68_eq]
  exact (stacked_piece0 _ k q).trans ((asSlab_apply _ k q).trans ((subf_apply _ _ _).trans
    (congrArg₂ (· - ·) (slabMat0_apply _ k q) (slabMat2_apply _ k q))))

/-- Slab 1 of `main_v68` is `W₁`. -/
theorem V_v68_1 (c : Dev nD) (k q : Fin 64) (W : S3x64x64.Idx → EReal) (hW : m ((c : Thread nD τ).loc main_arg3) = W) :
    (V m c main_v68 : S3x64x64.Idx → EReal) (ix3 (1 : Fin 3) k q) = W (ix3 (1 : Fin 3) k q) := by
  subst hW
  rw [V_v68_eq]
  exact (stacked_piece1 _ k q).trans ((asSlab_apply _ k q).trans (slabMat1_apply _ k q))

/-- Slab 2 of `main_v68` is `2 · W₂`. -/
theorem V_v68_2 (c : Dev nD) (k q : Fin 64) (W : S3x64x64.Idx → EReal) (hW : m ((c : Thread nD τ).loc main_arg3) = W) :
    (V m c main_v68 : S3x64x64.Idx → EReal) (ix3 (2 : Fin 3) k q) = Ideal.ofBits .f32 0x40000000#32 * W (ix3 (2 : Fin 3) k q) := by
  subst hW
  rw [V_v68_eq]
  exact (stacked_piece2 _ k q).trans ((asSlab_apply _ k q).trans ((mulf_apply _ _ _).trans
    (congrArg₂ (· * ·) (twos_apply k q) (slabMat2_apply _ k q))))

end Cert.Cheb

end
-- ==== Proof.RefEntry.lean ====
import proofs.«145639_j26611617366463_2_alg».proof.Proof.Gen.ReferenceIdeal.Read

/-!
# The reference at one entry

Row `r`, column `q` of the reference's result is
`max (((x·W₀)[r,q] + (T₁·W₁)[r,q]) + ((2·P₁ − x)·W₂)[r,q] + b[q]) 0`,
each matrix product a sum over the 64 contracted columns. `T₁` and `P₁` (one and two
applications of the normalised graph Laplacian to `x`) stay the named stages of the
reference's run: nothing here looks inside them.
-/

noncomputable section

namespace Cert.Cheb

open Idealize.ShloMosaic Idealize.ShloMosaic.ValueIdx
open Cert.ReferenceIdeal Cert.ReferenceIdeal.Read

/-- The literal `2.0` that doubles `P₁`. -/
abbrev twoLit : EReal := Ideal.ofBits .f32 0x40000000#32
/-- The literal `0.0` of the rectifier. -/
abbrev zeroLit : EReal := Ideal.ofBits .f32 0x00000000#32

/-- Row `r` of the left factor meets column `q` of the right one at the contracted position `k`. -/
theorem lidx30 (r : Fin 50000) (q k : Fin 64) : lidx_main_v30 (ix2 r q) k = ix2 r k :=
  funext fun a => Fin.ext (by match a with | ⟨0, _⟩ => rfl | ⟨1, _⟩ => rfl)
theorem lidx46 (r : Fin 50000) (q k : Fin 64) : lidx_main_v46 (ix2 r q) k = ix2 r k :=
  funext fun a => Fin.ext (by match a with | ⟨0, _⟩ => rfl | ⟨1, _⟩ => rfl)
theorem lidx66 (r : Fin 50000) (q k : Fin 64) : lidx_main_v66 (ix2 r q) k = ix2 r k :=
  funext fun a => Fin.ext (by match a with | ⟨0, _⟩ => rfl | ⟨1, _⟩ => rfl)

/-- Slab `j` of the stacked weights, flattened to a matrix, read at `(k, q)`. -/
theorem widx0 (r : Fin 50000) (q k : Fin 64) :
    idx_main_v28 (idx_main_v29 (ridx_main_v30 (ix2 r q) k)) = ix3 (0 : Fin 3) k q :=
  funext fun a => Fin.ext (by
    have hk := k.isLt; have hq := q.isLt
    match a with
    | ⟨0, _⟩ => rfl
    | ⟨1, _⟩ => show (k.val * 64 + q.val) / 64 % 64 = k.val; omega
    | ⟨2, _⟩ => show (k.val * 64 + q.val) % 64 = q.val; omega)
theorem widx1 (r : Fin 50000) (q k : Fin 64) :
    idx_main_v44 (idx_main_v45 (ridx_main_v46 (ix2 r q) k)) = ix3 (1 : Fin 3) k q :=
  funext fun a => Fin.ext (by
    have hk := k.isLt; have hq := q.isLt
    match a with
    | ⟨0, _⟩ => rfl
    | ⟨1, _⟩ => show (k.val * 64 + q.val) / 64 % 64 = k.val; omega
    | ⟨2, _⟩ => show (k.val * 64 + q.val) % 64 = q.val; omega)
theorem widx2 (r : Fin 50000) (q k : Fin 64) :
    idx_main_v64 (idx_main_v65 (ridx_main_v66 (ix2 r q) k)) = ix3 (2 : Fin 3) k q :=
  funext fun a => Fin.ext (by
    have hk := k.isLt; have hq := q.isLt
    match a with
    | ⟨0, _⟩ => rfl
    | ⟨1, _⟩ => show (k.val * 64 + q.val) / 64 % 64 = k.val; omega
    | ⟨2, _⟩ => show (k.val * 64 + q.val) % 64 = q.val; omega)

/-- The bias is broadcast along the rows: entry `(r, q)` reads `b[q]`. -/
theorem bidx (r : Fin 50000) (q : Fin 64) : idx_main_v68 (idx_main_v69 (ix2 r q)) = ix1 q :=
  funext fun a => Fin.ext (by match a with | ⟨0, _⟩ => rfl)

/-- The reference's result at `(r, q)`. -/
theorem ref_entry (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S3x64x64, .f32⟩ : BufTy).Contents (Elt Ideal)) (x4 : (⟨S64, .f32⟩ : BufTy).Contents (Elt Ideal)) (r : Fin 50000) (q : Fin 64) :
    val_main_v71 (F := Ideal) x0 x1 x2 x3 x4 (ix2 r q)
      = max ((((∑ k : Fin 64, x0 (ix2 r k) * x3 (ix3 (0 : Fin 3) k q))
              + ∑ k : Fin 64, val_main_v43 (F := Ideal) x0 x1 x2 (ix2 r k) * x3 (ix3 (1 : Fin 3) k q))
              + ∑ k : Fin 64, (twoLit * val_main_v60 (F := Ideal) x0 x1 x2 (ix2 r k) - x0 (ix2 r k)) * x3 (ix3 (2 : Fin 3) k q))
              + x4 (ix1 q)) zeroLit := by
  rw [val_main_v71_apply, val_main_v70_apply, val_main_v67_apply, val_main_v47_apply, val_main_v30_apply,
    val_main_v46_apply, val_main_v66_apply, val_main_v69_apply, val_main_v68_apply, val_main_call1_v0_apply,
    val_main_call1_cst_apply, bidx]
  have e0 : ∀ k : Fin 64, x0 (lidx_main_v30 (ix2 r q) k) * val_main_v29 (F := Ideal) x3 (ridx_main_v30 (ix2 r q) k)
      = x0 (ix2 r k) * x3 (ix3 (0 : Fin 3) k q) := fun k => by
    rw [lidx30, val_main_v29_apply, val_main_v28_apply, widx0]
  have e1 : ∀ k : Fin 64, val_main_v43 (F := Ideal) x0 x1 x2 (lidx_main_v46 (ix2 r q) k)
        * val_main_v45 (F := Ideal) x3 (ridx_main_v46 (ix2 r q) k)
      = val_main_v43 (F := Ideal) x0 x1 x2 (ix2 r k) * x3 (ix3 (1 : Fin 3) k q) := fun k => by
    rw [lidx46, val_main_v45_apply, val_main_v44_apply, widx1]
  have e2 : ∀ k : Fin 64, val_main_v63 (F := Ideal) x0 x1 x2 (lidx_main_v66 (ix2 r q) k)
        * val_main_v65 (F := Ideal) x3 (ridx_main_v66 (ix2 r q) k)
      = (twoLit * val_main_v60 (F := Ideal) x0 x1 x2 (ix2 r k) - x0 (ix2 r k)) * x3 (ix3 (2 : Fin 3) k q) := fun k => by
    rw [lidx66, val_main_v65_apply, val_main_v64_apply, widx2, val_main_v63_apply, val_main_v62_apply,
      val_main_v61_apply, val_main_cst_11_apply]
    rfl
  rw [Finset.sum_congr rfl (fun k _ => e0 k), Finset.sum_congr rfl (fun k _ => e1 k),
    Finset.sum_congr rfl (fun k _ => e2 k)]
  rfl

end Cert.Cheb

end
-- ==== Proof.ChebLaw.lean ====
import Mathlib.Tactic.Ring
import Mathlib.Tactic.Choose
import Mathlib.Algebra.BigOperators.Group.Finset.Basic
import Idealize.ShloMosaic.PureOps.Ideal
import Idealize.ShloMosaic.PureOps.Ideal.Laws

/-!
# The Chebyshev recombination law on the extended reals

With three Chebyshev terms the output row is
`T0 · W0 + T1 · W1 + T2 · W2` where `T0 = x`, `T1 = B` and `T2 = t · C - x`
(`t = 2`).  Collecting the two occurrences of `x` gives the equivalent form
`x · (W0 - W2) + B · W1 + C · (t · W2)`.  Over the reals this is distributivity;
over the extended reals distributivity fails at the infinities, so the factors
that are redistributed (`x`, `C`, `W0`, `W2`) are assumed finite.  The middle
term `B · W1` is the same on both sides and only moves by commutativity and
associativity of addition, which hold on all of `EReal`, so `B` and `W1` are
arbitrary.
-/

open scoped BigOperators
open Idealize.ShloMosaic

namespace Cert.Cheb

/-- The coercion `ℝ → EReal` commutes with finite sums. -/
theorem coe_finset_sum {κ : Type*} (s : Finset κ) (f : κ → ℝ) :
    ((∑ k ∈ s, f k : ℝ) : EReal) = ∑ k ∈ s, (f k : EReal) := by
  classical
  induction s using Finset.induction_on with
  | empty => simp
  | insert a s ha ih =>
    rw [Finset.sum_insert ha, Finset.sum_insert ha, EReal.coe_add, ih]

/-- A sum of products of finite extended reals is the coercion of the real sum. -/
theorem sum_eq_coe {κ : Type*} [Fintype κ] (f : κ → EReal) (g : κ → ℝ)
    (h : ∀ k, f k = (g k : EReal)) : ∑ k, f k = ((∑ k, g k : ℝ) : EReal) := by
  rw [coe_finset_sum]
  exact Finset.sum_congr rfl (fun k _ => h k)

/-- The recombination law: `x·(w0 - w2) + B·w1 + C·(t·w2) = x·w0 + B·w1 + (t·C - x)·w2`,
    summed over the contracted axis, for finite `x`, `C`, `w0`, `w2`. -/
theorem cheb_law {κ : Type*} [Fintype κ] (t : ℝ) (x B C w0 w1 w2 : κ → EReal)
    (hx : ∀ k, ∃ r : ℝ, x k = (r : EReal)) (hC : ∀ k, ∃ r : ℝ, C k = (r : EReal))
    (hw0 : ∀ k, ∃ r : ℝ, w0 k = (r : EReal)) (hw2 : ∀ k, ∃ r : ℝ, w2 k = (r : EReal)) :
    ((∑ k, x k * (w0 k - w2 k)) + ∑ k, B k * w1 k) + ∑ k, C k * ((t : EReal) * w2 k)
      = ((∑ k, x k * w0 k) + ∑ k, B k * w1 k) + ∑ k, ((t : EReal) * C k - x k) * w2 k := by
  choose xr hxr using hx
  choose Cr hCr using hC
  choose ar har using hw0
  choose cr hcr using hw2
  have e1 : ∑ k, x k * (w0 k - w2 k) = ((∑ k, xr k * (ar k - cr k) : ℝ) : EReal) :=
    sum_eq_coe _ _ (fun k => by
      rw [hxr, har, hcr, ← EReal.coe_sub, ← EReal.coe_mul])
  have e2 : ∑ k, C k * ((t : EReal) * w2 k) = ((∑ k, Cr k * (t * cr k) : ℝ) : EReal) :=
    sum_eq_coe _ _ (fun k => by
      rw [hCr, hcr, ← EReal.coe_mul, ← EReal.coe_mul])
  have e3 : ∑ k, x k * w0 k = ((∑ k, xr k * ar k : ℝ) : EReal) :=
    sum_eq_coe _ _ (fun k => by
      rw [hxr, har, ← EReal.coe_mul])
  have e4 : ∑ k, ((t : EReal) * C k - x k) * w2 k
      = ((∑ k, (t * Cr k - xr k) * cr k : ℝ) : EReal) :=
    sum_eq_coe _ _ (fun k => by
      rw [hxr, hCr, hcr, ← EReal.coe_mul, ← EReal.coe_sub, ← EReal.coe_mul])
  have key : (∑ k, xr k * (ar k - cr k)) + ∑ k, Cr k * (t * cr k)
      = (∑ k, xr k * ar k) + ∑ k, (t * Cr k - xr k) * cr k := by
    rw [← Finset.sum_add_distrib, ← Finset.sum_add_distrib]
    exact Finset.sum_congr rfl (fun k _ => by ring)
  rw [e1, e2, e3, e4, add_right_comm, add_right_comm (((∑ k, xr k * ar k : ℝ)) : EReal),
    ← EReal.coe_add, ← EReal.coe_add, key]

/-- The literal `2.0` of the kernel, as a real. -/
theorem ofBits_two_f32 : Ideal.ofBits .f32 0x40000000#32 = ((2 : ℝ) : EReal) := by
  simp [Ideal.ofBits, Ideal.ieee, -EReal.coe_mul]; norm_num

theorem two_real : ∃ r : ℝ, Ideal.ofBits .f32 0x40000000#32 = (r : EReal) :=
  ⟨2, ofBits_two_f32⟩

theorem zero_real : ∃ r : ℝ, Ideal.ofBits .f32 0x00000000#32 = (r : EReal) :=
  ⟨0, by rw [Ideal.ofBits_zero_f32, EReal.coe_zero]⟩

end Cert.Cheb
-- ==== Proof.FiniteOps.lean ====
import Mathlib.Tactic.Ring
import Mathlib.Algebra.BigOperators.Group.Finset.Basic
import Idealize.ShloMosaic.PureOps
import Idealize.ShloMosaic.PureOps.Ideal
import Idealize.ShloMosaic.PureOps.Ideal.Laws

/-!
# Finiteness is preserved by the host operations of the graph-convolution chain

At the ideal instance a float is an extended real.  A tensor is *finite* when every
entry is the coercion of a real number.  Re-indexings (gather, broadcast, slice,
reshape, concatenate) only move entries around; sums, differences, products and
negations of reals are reals; a scatter-add adds a finite sum of update entries to
each operand entry; and the degree normalisation `deg > 0 ? 1/√deg : 0` is the
inverse square root of a positive real where the comparison holds and the literal
zero elsewhere.
-/

open scoped BigOperators
open Idealize.ShloMosaic

namespace Cert.Cheb

/-- Every entry is (the coercion of) a real number. -/
def IsFin {ι : Type} (v : ι → EReal) : Prop := ∀ i, ∃ r : ℝ, v i = (r : EReal)

theorem IsFin.apply {ι : Type} {v : ι → EReal} (h : IsFin v) (i : ι) : ∃ r : ℝ, v i = (r : EReal) := h i

/-- Reading a finite tensor through any re-indexing gives a finite tensor. -/
theorem IsFin.comp {ι κ : Type} {v : ι → EReal} (h : IsFin v) (f : κ → ι) : IsFin (fun j => v (f j)) :=
  fun j => h (f j)

/-- A finite sum of reals is a real. -/
theorem exists_real_sum {κ : Type} (s : Finset κ) (f : κ → EReal)
    (h : ∀ j ∈ s, ∃ r : ℝ, f j = (r : EReal)) : ∃ r : ℝ, ∑ j ∈ s, f j = (r : EReal) := by
  classical
  induction s using Finset.induction_on with
  | empty => exact ⟨0, by simp⟩
  | insert a s ha ih =>
    obtain ⟨r, hr⟩ := h a (Finset.mem_insert_self a s)
    obtain ⟨q, hq⟩ := ih (fun j hj => h j (Finset.mem_insert_of_mem hj))
    exact ⟨r + q, by rw [Finset.sum_insert ha, hr, hq, EReal.coe_add]⟩

section Elementwise
variable {s : Shape} {φ : FTy}

theorem isFin_mulf {a b : FVec Ideal s φ} (ha : IsFin a) (hb : IsFin b) : IsFin (mulf a b) := by
  intro i
  obtain ⟨r, hr⟩ := ha i
  obtain ⟨q, hq⟩ := hb i
  exact ⟨r * q, by show a i * b i = _; rw [hr, hq, EReal.coe_mul]⟩

theorem isFin_addf {a b : FVec Ideal s φ} (ha : IsFin a) (hb : IsFin b) : IsFin (addf a b) := by
  intro i
  obtain ⟨r, hr⟩ := ha i
  obtain ⟨q, hq⟩ := hb i
  exact ⟨r + q, by show a i + b i = _; rw [hr, hq, EReal.coe_add]⟩

theorem isFin_subf {a b : FVec Ideal s φ} (ha : IsFin a) (hb : IsFin b) : IsFin (subf a b) := by
  intro i
  obtain ⟨r, hr⟩ := ha i
  obtain ⟨q, hq⟩ := hb i
  exact ⟨r - q, by show a i - b i = _; rw [hr, hq, EReal.coe_sub]⟩

theorem isFin_negf {a : FVec Ideal s φ} (ha : IsFin a) : IsFin (Host.negf a) := by
  intro i
  obtain ⟨r, hr⟩ := ha i
  exact ⟨-r, by show -(a i) = _; rw [hr, EReal.coe_neg]⟩

/-- A splat of a bit pattern that denotes a real is finite. -/
theorem isFin_constant_of {w : BitVec (FTy.bits φ)} (hw : ∃ r : ℝ, Ideal.ofBits φ w = (r : EReal)) :
    IsFin (constant (F := Ideal) s φ w) :=
  fun _ => hw

/-- The literal `0.0`. -/
theorem isFin_constant_zero : IsFin (constant (F := Ideal) s .f32 0x00000000#32) :=
  isFin_constant_of ⟨0, by rw [Ideal.ofBits_zero_f32, EReal.coe_zero]⟩

/-- The literal `2.0`. -/
theorem isFin_constant_two : IsFin (constant (F := Ideal) s .f32 0x40000000#32) :=
  isFin_constant_of ⟨2, by simp [Ideal.ofBits, Ideal.ieee, -EReal.coe_mul]; norm_num⟩

theorem constant_zero_apply (i : s.Idx) : constant (F := Ideal) s .f32 0x00000000#32 i = 0 :=
  Ideal.ofBits_zero_f32

end Elementwise

section Reindex
variable {s t : Shape}

theorem isFin_broadcastInDim {x : s.Idx → EReal} (dims : Fin s.rank → Fin t.rank)
    (h : s.BroadcastsInDim t dims) (hx : IsFin x) : IsFin (broadcastInDim t dims h x) :=
  fun _ => hx _

theorem isFin_shapeCast {x : s.Idx → EReal} (h : s.ShapeCasts t) (hx : IsFin x) :
    IsFin (shapeCast t x h) :=
  fun _ => hx _

theorem isFin_extractStridedSlice {x : s.Idx → EReal} (off : Fin s.rank → Nat) (h : s.Slices off t)
    (hx : IsFin x) : IsFin (extractStridedSlice t off x h) :=
  fun _ => hx _

theorem isFin_gather {si : Shape} {w : Nat} (d : GatherDims s si t) {x : s.Idx → EReal} (idx : IVec si w)
    (hx : IsFin x) : IsFin (Host.gather d x idx) :=
  fun _ => hx _

/-- A concatenation of finite tensors is finite. -/
theorem isFin_concatenate (a : Fin t.rank) (xs : List ((s : Shape) × (s.Idx → EReal)))
    (h : Shape.Concatenates (xs.map (·.1)) t a) (hxs : ∀ p ∈ xs, IsFin p.2) :
    IsFin (concatenate t a xs h) := by
  intro j
  unfold concatenate
  exact hxs _ (List.getElem_mem _) _

end Reindex

/-- The accumulating scatter: each operand entry plus the sum of the updates landing on it. -/
theorem isFin_scatterAdd {s si u : Shape} {φ : FTy} {w : Nat} (d : ScatterDims s si u)
    {x : FVec Ideal s φ} (idx : IVec si w) {upd : FVec Ideal u φ} (hx : IsFin x) (hu : IsFin upd) :
    IsFin (Host.scatterAdd d x idx upd) := by
  intro i
  obtain ⟨r, hr⟩ := hx i
  obtain ⟨q, hq⟩ := exists_real_sum
    (Finset.univ.filter (fun j => d.resultIdx? j idx = some i)) upd (fun j _ => hu j)
  exact ⟨r + q, by
    show x i + ∑ j ∈ Finset.univ.filter (fun j => d.resultIdx? j idx = some i), upd j = _
    rw [hr, hq, EReal.coe_add]⟩

/-- The inverse square root of a positive real is a real. -/
theorem rsqrt_real_of_pos {r : ℝ} (hr : 0 < r) : ∃ q : ℝ, Ideal.rsqrt (r : EReal) = (q : EReal) := by
  refine ⟨(Real.sqrt r)⁻¹, ?_⟩
  rw [Ideal.rsqrt_coe, if_neg (not_lt.mpr hr.le), if_neg hr.ne']

/-- The degree normalisation `where (deg > z) (rsqrt deg) e` with `z` the zero tensor and `e` finite:
    where the comparison holds `deg` is a positive real and its inverse square root is real;
    elsewhere the value is `e`'s. -/
theorem isFin_where_rsqrt {s : Shape} {φ : FTy} {deg z e : FVec Ideal s φ} (hdeg : IsFin deg)
    (hz : ∀ i, z i = 0) (he : IsFin e) :
    IsFin (select (cmpf .ogt deg z) (Host.rsqrt deg) e) := by
  intro i
  obtain ⟨r, hr⟩ := hdeg i
  show ∃ q : ℝ, (if Ideal.cmp .ogt (deg i) (z i) = 1 then Ideal.rsqrt (deg i) else e i) = (q : EReal)
  rw [hz i, hr]
  by_cases hpos : (0 : EReal) < (r : EReal)
  · have h1 : Ideal.cmp .ogt (r : EReal) 0 = 1 := by simp [Ideal.cmp, hpos]
    rw [if_pos h1]
    exact rsqrt_real_of_pos (by exact_mod_cast hpos)
  · have h0 : Ideal.cmp .ogt (r : EReal) 0 ≠ 1 := by simp [Ideal.cmp, hpos]
    rw [if_neg h0]
    exact he i

/-- The same in the spelling of the printed host chain: the comparison is against a broadcast of the
    literal zero, and the else-branch is a broadcast of the (converted) literal zero. -/
theorem isFin_where_rsqrt_printed {s0 s : Shape} {deg : FVec Ideal s .f32}
    (dims : Fin s0.rank → Fin s.rank) (h h' : s0.BroadcastsInDim s dims) (hdeg : IsFin deg) :
    IsFin (select (cmpf .ogt deg (broadcastInDim s dims h (constant (F := Ideal) s0 .f32 0x00000000#32)))
      (Host.rsqrt deg) (broadcastInDim s dims h' (id (constant (F := Ideal) s0 .f32 0x00000000#32)))) :=
  isFin_where_rsqrt hdeg (fun _ => Ideal.ofBits_zero_f32)
    (isFin_broadcastInDim dims h' isFin_constant_zero)

end Cert.Cheb
-- ==== Proof.FiniteChain.lean ====
import proofs.«145639_j26611617366463_2_alg».proof.Proof.FiniteOps
import proofs.«145639_j26611617366463_2_alg».proof.Proof.Gen.ReferenceIdeal.Read

/-!
# The host chain of the graph convolution keeps finite inputs finite

From finite node features `x0` and finite edge weights `x2` (the edge list `x1` is integer
data and only selects positions):

* the degree `deg = scatter-add of the edge weights` is a finite sum of reals;
* the normalisation `d = where (deg > 0) (1/√deg) 0` is real where the comparison holds
  (the inverse square root of a positive real) and zero elsewhere;
* the edge coefficient `-(d[row]) · w · d[col]` is a product of reals;
* `T₁ = scatter-add of coefficient · x0[col]` and `P₁ = scatter-add of coefficient · T₁[col]`
  are finite sums of products of reals.

Each stage is one closure lemma applied to the stages before it.
-/

noncomputable section

namespace Cert.Cheb

open Idealize.ShloMosaic Cert.ReferenceIdeal Cert.ReferenceIdeal.Read

/-- The zero vector the degree is accumulated into. -/
theorem isFin_v4 : IsFin (val_main_v4 (F := Ideal)) := by
  unfold val_main_v4 val_main_cst
  exact isFin_broadcastInDim _ _ isFin_constant_zero

/-- The degree: each entry is a finite sum of edge weights. -/
theorem isFin_v6 (x1 : (⟨S2x800000, .i32⟩ : BufTy).Contents (Elt Ideal)) (x2 : (⟨S800000, .f32⟩ : BufTy).Contents (Elt Ideal)) (h2 : IsFin x2) : IsFin (val_main_v6 (F := Ideal) x1 x2) := by
  unfold val_main_v6
  exact isFin_scatterAdd _ _ isFin_v4 h2

/-- The normalisation `where (deg > 0) (rsqrt deg) 0`. -/
theorem isFin_v10 (x1 : (⟨S2x800000, .i32⟩ : BufTy).Contents (Elt Ideal)) (x2 : (⟨S800000, .f32⟩ : BufTy).Contents (Elt Ideal)) (h2 : IsFin x2) : IsFin (val_main_v10 (F := Ideal) x1 x2) := by
  unfold val_main_v10 val_main_v8 val_main_v9 val_main_v7 val_main_cst_0 val_main_call0_v1
    val_main_call0_v0 val_main_cst_1
  exact isFin_where_rsqrt_printed _ _ _ (isFin_v6 x1 x2 h2)

/-- The normalisation read at the row end of each edge. -/
theorem isFin_v17 (x1 : (⟨S2x800000, .i32⟩ : BufTy).Contents (Elt Ideal)) (x2 : (⟨S800000, .f32⟩ : BufTy).Contents (Elt Ideal)) (h2 : IsFin x2) : IsFin (val_main_v17 (F := Ideal) x1 x2) := by
  unfold val_main_v17
  exact isFin_gather _ _ (isFin_v10 x1 x2 h2)

theorem isFin_v18 (x1 : (⟨S2x800000, .i32⟩ : BufTy).Contents (Elt Ideal)) (x2 : (⟨S800000, .f32⟩ : BufTy).Contents (Elt Ideal)) (h2 : IsFin x2) : IsFin (val_main_v18 (F := Ideal) x1 x2) := by
  unfold val_main_v18
  exact isFin_negf (isFin_v17 x1 x2 h2)

theorem isFin_v19 (x1 : (⟨S2x800000, .i32⟩ : BufTy).Contents (Elt Ideal)) (x2 : (⟨S800000, .f32⟩ : BufTy).Contents (Elt Ideal)) (h2 : IsFin x2) : IsFin (val_main_v19 (F := Ideal) x1 x2) := by
  unfold val_main_v19
  exact isFin_mulf (isFin_v18 x1 x2 h2) h2

/-- The normalisation read at the column end of each edge. -/
theorem isFin_v26 (x1 : (⟨S2x800000, .i32⟩ : BufTy).Contents (Elt Ideal)) (x2 : (⟨S800000, .f32⟩ : BufTy).Contents (Elt Ideal)) (h2 : IsFin x2) : IsFin (val_main_v26 (F := Ideal) x1 x2) := by
  unfold val_main_v26
  exact isFin_gather _ _ (isFin_v10 x1 x2 h2)

/-- The edge coefficient `-(d[row]) · w · d[col]`. -/
theorem isFin_v27 (x1 : (⟨S2x800000, .i32⟩ : BufTy).Contents (Elt Ideal)) (x2 : (⟨S800000, .f32⟩ : BufTy).Contents (Elt Ideal)) (h2 : IsFin x2) : IsFin (val_main_v27 (F := Ideal) x1 x2) := by
  unfold val_main_v27
  exact isFin_mulf (isFin_v19 x1 x2 h2) (isFin_v26 x1 x2 h2)

theorem isFin_v31 (x1 : (⟨S2x800000, .i32⟩ : BufTy).Contents (Elt Ideal)) (x2 : (⟨S800000, .f32⟩ : BufTy).Contents (Elt Ideal)) (h2 : IsFin x2) : IsFin (val_main_v31 (F := Ideal) x1 x2) := by
  unfold val_main_v31
  exact isFin_broadcastInDim _ _ (isFin_v27 x1 x2 h2)

/-- The feature rows at the column end of each edge. -/
theorem isFin_v38 (x0 : (⟨S50000x64, .f32⟩ : BufTy).Contents (Elt Ideal)) (x1 : (⟨S2x800000, .i32⟩ : BufTy).Contents (Elt Ideal)) (h0 : IsFin x0) : IsFin (val_main_v38 (F := Ideal) x0 x1) := by
  unfold val_main_v38
  exact isFin_gather _ _ h0

theorem isFin_v39 (x1 : (⟨S2x800000, .i32⟩ : BufTy).Contents (Elt Ideal)) (x2 : (⟨S800000, .f32⟩ : BufTy).Contents (Elt Ideal)) (h2 : IsFin x2) : IsFin (val_main_v39 (F := Ideal) x1 x2) := by
  unfold val_main_v39
  exact isFin_broadcastInDim _ _ (isFin_v31 x1 x2 h2)

theorem isFin_v40 (x0 : (⟨S50000x64, .f32⟩ : BufTy).Contents (Elt Ideal)) (x1 : (⟨S2x800000, .i32⟩ : BufTy).Contents (Elt Ideal)) (x2 : (⟨S800000, .f32⟩ : BufTy).Contents (Elt Ideal)) (h0 : IsFin x0) (h2 : IsFin x2) :
    IsFin (val_main_v40 (F := Ideal) x0 x1 x2) := by
  unfold val_main_v40
  exact isFin_mulf (isFin_v39 x1 x2 h2) (isFin_v38 x0 x1 h0)

theorem isFin_v41 : IsFin (val_main_v41 (F := Ideal)) := by
  unfold val_main_v41 val_main_cst_7
  exact isFin_broadcastInDim _ _ isFin_constant_zero

/-- `T₁`: the first propagation of the features. -/
theorem isFin_T1 (x0 : (⟨S50000x64, .f32⟩ : BufTy).Contents (Elt Ideal)) (x1 : (⟨S2x800000, .i32⟩ : BufTy).Contents (Elt Ideal)) (x2 : (⟨S800000, .f32⟩ : BufTy).Contents (Elt Ideal)) (h0 : IsFin x0) (h2 : IsFin x2) :
    IsFin (val_main_v43 (F := Ideal) x0 x1 x2) := by
  unfold val_main_v43
  exact isFin_scatterAdd _ _ isFin_v41 (isFin_v40 x0 x1 x2 h0 h2)

theorem isFin_v48 (x1 : (⟨S2x800000, .i32⟩ : BufTy).Contents (Elt Ideal)) (x2 : (⟨S800000, .f32⟩ : BufTy).Contents (Elt Ideal)) (h2 : IsFin x2) : IsFin (val_main_v48 (F := Ideal) x1 x2) := by
  unfold val_main_v48
  exact isFin_broadcastInDim _ _ (isFin_v27 x1 x2 h2)

/-- The rows of `T₁` at the column end of each edge. -/
theorem isFin_v55 (x0 : (⟨S50000x64, .f32⟩ : BufTy).Contents (Elt Ideal)) (x1 : (⟨S2x800000, .i32⟩ : BufTy).Contents (Elt Ideal)) (x2 : (⟨S800000, .f32⟩ : BufTy).Contents (Elt Ideal)) (h0 : IsFin x0) (h2 : IsFin x2) :
    IsFin (val_main_v55 (F := Ideal) x0 x1 x2) := by
  unfold val_main_v55
  exact isFin_gather _ _ (isFin_T1 x0 x1 x2 h0 h2)

theorem isFin_v56 (x1 : (⟨S2x800000, .i32⟩ : BufTy).Contents (Elt Ideal)) (x2 : (⟨S800000, .f32⟩ : BufTy).Contents (Elt Ideal)) (h2 : IsFin x2) : IsFin (val_main_v56 (F := Ideal) x1 x2) := by
  unfold val_main_v56
  exact isFin_broadcastInDim _ _ (isFin_v48 x1 x2 h2)

theorem isFin_v57 (x0 : (⟨S50000x64, .f32⟩ : BufTy).Contents (Elt Ideal)) (x1 : (⟨S2x800000, .i32⟩ : BufTy).Contents (Elt Ideal)) (x2 : (⟨S800000, .f32⟩ : BufTy).Contents (Elt Ideal)) (h0 : IsFin x0) (h2 : IsFin x2) :
    IsFin (val_main_v57 (F := Ideal) x0 x1 x2) := by
  unfold val_main_v57
  exact isFin_mulf (isFin_v56 x1 x2 h2) (isFin_v55 x0 x1 x2 h0 h2)

theorem isFin_v58 : IsFin (val_main_v58 (F := Ideal)) := by
  unfold val_main_v58 val_main_cst_10
  exact isFin_broadcastInDim _ _ isFin_constant_zero

/-- `P₁`: the propagation of `T₁`. -/
theorem isFin_P1 (x0 : (⟨S50000x64, .f32⟩ : BufTy).Contents (Elt Ideal)) (x1 : (⟨S2x800000, .i32⟩ : BufTy).Contents (Elt Ideal)) (x2 : (⟨S800000, .f32⟩ : BufTy).Contents (Elt Ideal)) (h0 : IsFin x0) (h2 : IsFin x2) :
    IsFin (val_main_v60 (F := Ideal) x0 x1 x2) := by
  unfold val_main_v60
  exact isFin_scatterAdd _ _ isFin_v58 (isFin_v57 x0 x1 x2 h0 h2)

end Cert.Cheb

end
-- ==== Proof.ChebBridge.lean ====
import proofs.«145639_j26611617366463_2_alg».proof.Proof.ChebOut
import proofs.«145639_j26611617366463_2_alg».proof.Proof.RefEntry
import proofs.«145639_j26611617366463_2_alg».proof.Proof.ChebLaw
import proofs.«145639_j26611617366463_2_alg».proof.Proof.FiniteOps
import proofs.«145639_j26611617366463_2_alg».proof.Proof.FiniteChain

/-!
# The two programs compute one function

With `T₁, P₁` the shared stages, the kernel multiplies `x` by `W₀ − W₂`, `T₁` by `W₁` and `P₁` by `2·W₂`;
the reference multiplies `x` by `W₀`, `T₁` by `W₁` and `2·P₁ − x` by `W₂`. Entry by entry the two agree
by distributivity, which on the extended reals needs `x`, `P₁`, `W₀`, `W₂` finite: `x` and `W` are finite
by the precondition, and `P₁` because every stage of the shared chain keeps finite values finite.
-/

noncomputable section

namespace Cert.Cheb

open Idealize.ShloMosaic Idealize.ShloMosaic.ValueIdx
open Cert.ReferenceIdeal.Read

/-- For any stacked matrices `A3` reading as `W₀ − W₂`, `W₁`, `2·W₂` and any bias row `A4` reading as `b`:
    the kernel's function of `x, T₁, P₁, A3, A4` is the reference's result. -/
theorem cheb_bridge (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal))
    (x3 : (⟨Cert.ReferenceIdeal.S3x64x64, .f32⟩ : BufTy).Contents (Elt Ideal)) (x4 : (⟨Cert.ReferenceIdeal.S64, .f32⟩ : BufTy).Contents (Elt Ideal))
    (A3 : Cert.KernelIdeal.S3x64x64.Idx → EReal) (A4 : Cert.KernelIdeal.S1x64.Idx → EReal)
    (h0 : IsFin x0) (h2 : IsFin x2) (h3 : IsFin x3)
    (w0 : ∀ k q : Fin 64, A3 (ix3 (0 : Fin 3) k q) = x3 (ix3 (0 : Fin 3) k q) - x3 (ix3 (2 : Fin 3) k q))
    (w1 : ∀ k q : Fin 64, A3 (ix3 (1 : Fin 3) k q) = x3 (ix3 (1 : Fin 3) k q))
    (w2 : ∀ k q : Fin 64, A3 (ix3 (2 : Fin 3) k q) = Ideal.ofBits .f32 0x40000000#32 * x3 (ix3 (2 : Fin 3) k q))
    (hb : ∀ q : Fin 64, A4 (ix2 (0 : Fin 1) q) = x4 (ix1 q)) :
    chebOut x0 (val_main_v43 (F := Ideal) x0 x1 x2) (val_main_v60 (F := Ideal) x0 x1 x2) A3 A4
      = val_main_v71 (F := Ideal) x0 x1 x2 x3 x4 := by
  have hP := isFin_P1 x0 x1 x2 h0 h2
  refine arr_ext _ _ fun r q => ?_
  rw [chebOut_entry, ref_entry]
  have s0 : (∑ k : Fin 64, x0 (ix2 r k) * A3 (ix3 (0 : Fin 3) k q))
      = ∑ k : Fin 64, x0 (ix2 r k) * (x3 (ix3 (0 : Fin 3) k q) - x3 (ix3 (2 : Fin 3) k q)) :=
    Finset.sum_congr rfl fun k _ => by rw [w0]
  have s1 : (∑ k : Fin 64, val_main_v43 (F := Ideal) x0 x1 x2 (ix2 r k) * A3 (ix3 (1 : Fin 3) k q))
      = ∑ k : Fin 64, val_main_v43 (F := Ideal) x0 x1 x2 (ix2 r k) * x3 (ix3 (1 : Fin 3) k q) :=
    Finset.sum_congr rfl fun k _ => by rw [w1]
  have s2 : (∑ k : Fin 64, val_main_v60 (F := Ideal) x0 x1 x2 (ix2 r k) * A3 (ix3 (2 : Fin 3) k q))
      = ∑ k : Fin 64, val_main_v60 (F := Ideal) x0 x1 x2 (ix2 r k) * (((2 : ℝ) : EReal) * x3 (ix3 (2 : Fin 3) k q)) :=
    Finset.sum_congr rfl fun k _ => by rw [w2, ofBits_two_f32]
  rw [s0, s1, s2, hb, show twoLit = ((2 : ℝ) : EReal) from ofBits_two_f32]
  have L := cheb_law (2 : ℝ) (fun k : Fin 64 => x0 (ix2 r k)) (fun k => val_main_v43 (F := Ideal) x0 x1 x2 (ix2 r k))
    (fun k => val_main_v60 (F := Ideal) x0 x1 x2 (ix2 r k)) (fun k => x3 (ix3 (0 : Fin 3) k q))
    (fun k => x3 (ix3 (1 : Fin 3) k q)) (fun k => x3 (ix3 (2 : Fin 3) k q))
    (fun k => h0 _) (fun k => hP _) (fun k => h3 _) (fun k => h3 _)
  exact congrArg (fun s => max (s + x4 (ix1 q)) zeroLit) L

end Cert.Cheb

end
-- ==== Proof.PreFinite.lean ====
import proofs.«145639_j26611617366463_2_alg».proof.Defs
import proofs.«145639_j26611617366463_2_alg».proof.Proof.FiniteOps
import Idealize.ShloMosaic.Lib.ReduceAll
import Idealize.ShloMosaic.Lib.ValueIdx

/-!
# From the precondition to finiteness of the float arguments

The precondition is the conjunction, over the four float arguments, of `all (|x| < +∞)`.
At the ideal instance `+∞` is the top of the extended reals and `|x| = max x (-x)`, so
`|x| < ⊤` excludes both `⊤` and `⊥` (as `-⊥ = ⊤`): the entry is a real number.
-/

set_option maxRecDepth 16384

noncomputable section

namespace Cert.Cheb

open Idealize.ShloMosaic Idealize.SL.Sem

/-- A rank-0 tensor has one index. -/
instance subsingleton_idx_rank0 : Subsingleton (⟨0, ![]⟩ : Shape).Idx :=
  ⟨fun a b => funext fun d => d.elim0⟩

/-- The pattern `0x7F800000` is `+∞`. -/
theorem ofBits_inf_f32 : Ideal.ofBits .f32 0x7F800000#32 = ⊤ := by simp [Ideal.ofBits, Ideal.ieee]

/-- `|x| < +∞` says `x` is a real number. -/
theorem real_of_abs_lt_inf (x : EReal)
    (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- `all (|x| < +∞)` says the tensor `x` is finite. -/
theorem isFin_of_all {s : Shape} {axes : List (Fin s.rank)} (x : FVec Ideal s .f32)
    (b : (⟨0, ![]⟩ : Shape).BroadcastsInDim s (![] : Fin 0 → Fin s.rank))
    (h : s.ReducesTo axes ⟨0, ![]⟩) (hu : 0 < (⟨0, ![]⟩ : Shape).numel)
    (init : IVec ⟨0, ![]⟩ 1) (j : (⟨0, ![]⟩ : Shape).Idx)
    (e : Host.reduce IntOp.andi
      (cmpf .olt (Host.absf x) (broadcastInDim s ![] b (constant (F := Ideal) ⟨0, ![]⟩ .f32 0x7F800000#32)))
      init h hu j = 1#1) :
    IsFin x := by
  intro i
  have hi := Host.reduce_andi_all _ init h hu j e i
  exact real_of_abs_lt_inf (x i) hi

/-- The precondition gives finiteness of the four float arguments, on every device. -/
theorem pre_finite [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsFin (m ((c.tc : Thread Cert.KernelIdeal.nD Cert.KernelIdeal.τ).loc Cert.KernelIdeal.main_arg0))
    ∧ IsFin (m ((c.tc : Thread Cert.KernelIdeal.nD Cert.KernelIdeal.τ).loc Cert.KernelIdeal.main_arg2))
    ∧ IsFin (m ((c.tc : Thread Cert.KernelIdeal.nD Cert.KernelIdeal.τ).loc Cert.KernelIdeal.main_arg3))
    ∧ IsFin (m ((c.tc : Thread Cert.KernelIdeal.nD Cert.KernelIdeal.τ).loc Cert.KernelIdeal.main_arg4)) := by
  have e := congrFun (h c) ValueIdx.ix0
  dsimp only [Cert.Pre_finite_inputs.fn, Cert.Pre_finite_inputs.fn_part1] at e
  simp only [andi, IntOp.andi_eq_one] at e
  obtain ⟨⟨⟨e0, e2⟩, e3⟩, e4⟩ := e
  exact ⟨isFin_of_all _ _ _ _ _ _ e0, isFin_of_all _ _ _ _ _ _ e2, isFin_of_all _ _ _ _ _ _ e3,
    isFin_of_all _ _ _ _ _ _ e4⟩

end Cert.Cheb

end
-- ==== Proof.Assemble.lean ====
import proofs.«145639_j26611617366463_2_alg».proof.Proof.BlockArray
import proofs.«145639_j26611617366463_2_alg».proof.Proof.HostValues
import proofs.«145639_j26611617366463_2_alg».proof.Proof.HostWeights
import proofs.«145639_j26611617366463_2_alg».proof.Proof.ChebBridge
import proofs.«145639_j26611617366463_2_alg».proof.Proof.PreFinite
import proofs.«145639_j26611617366463_2_alg».proof.Proof.FramePostKI
import proofs.«145639_j26611617366463_2_alg».proof.Proof.Gen.Pre_finite_inputs

/-!
# The output array is the reference's result

The region's five input arrays are `x` (an argument, untouched by the host statements), the shared stages
`T₁` and `P₁`, the stacked matrices `W₀ − W₂, W₁, 2·W₂` and the bias as a row. Under the precondition
(`x`, the edge weights, `W` and `b` finite) the kernel's function of them is the reference's result.
-/

noncomputable section

namespace Cert.Cheb

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The bias row the region finds, read at column `q`, is `b[q]`. -/
theorem bias_row (c : Dev nD) (q : Fin 64) (b : S64.Idx → EReal) (hb : m ((c : Thread nD τ).loc main_arg4) = b) :
    (V m c (Pipeline.arrRef spec0 4) : S1x64.Idx → EReal) (ix2 (0 : Fin 1) q) = b (ix1 q) := by
  have e : (V m c (Pipeline.arrRef spec0 4) : S1x64.Idx → EReal) = shapeCast S1x64 b shapeCasts_S64_S1x64 := by
    rw [← hb]; exact V_v69 (F := Ideal) m c
  rw [e]
  exact shapeCast_apply b shapeCasts_S64_S1x64 (ix2 (0 : Fin 1) q) (ix1 q) (by
    rw [Shape.rowMajor_val_one, Shape.rowMajor_val_two]
    show q.val = 0 * 64 + q.val
    omega)

/-- Under the precondition, the array the kernel leaves in its result is the reference's result of the same arguments. -/
theorem kernel_eq_ref (hpre : Cert.Pre_KernelIdeal m) (c : Dev nD) :
    chebOut (V m c (Pipeline.arrRef spec0 0)) (V m c (Pipeline.arrRef spec0 1)) (V m c (Pipeline.arrRef spec0 2))
        (V m c (Pipeline.arrRef spec0 3)) (V m c (Pipeline.arrRef spec0 4))
      = Cert.ReferenceIdeal.Read.val_main_v71 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  obtain ⟨h0, h2, h3, -⟩ := pre_finite m hpre c
  have e0 : V m c (Pipeline.arrRef spec0 0) = m ((c : Thread nD τ).loc main_arg0) := V_main_arg0 m c
  have e1 := V_v40 (F := Ideal) m c
  have e2 := V_v53 (F := Ideal) m c
  have B := cheb_bridge (m ((c : Thread nD τ).loc main_arg0)) (m ((c : Thread nD τ).loc main_arg1))
    (m ((c : Thread nD τ).loc main_arg2)) (m ((c : Thread nD τ).loc main_arg3)) (m ((c : Thread nD τ).loc main_arg4))
    (V m c (Pipeline.arrRef spec0 3)) (V m c (Pipeline.arrRef spec0 4)) h0 h2 h3
    (fun k q => V_v68_0 m c k q _ rfl) (fun k q => V_v68_1 m c k q _ rfl) (fun k q => V_v68_2 m c k q _ rfl)
    (fun q => bias_row m c q _ rfl)
  rw [e0]
  exact (congrArg₂ (fun T P => chebOut (m ((c : Thread nD τ).loc main_arg0)) T P (V m c (Pipeline.arrRef spec0 3))
    (V m c (Pipeline.arrRef spec0 4))) e1 e2).trans B

end Cert.Cheb

end
-- ==== Proof.lean ====
import proofs.«145639_j26611617366463_2_alg».proof.Defs
import proofs.«145639_j26611617366463_2_alg».proof.Proof.Gen.Kernel
import proofs.«145639_j26611617366463_2_alg».proof.Proof.Gen.KernelIdeal
import proofs.«145639_j26611617366463_2_alg».proof.Proof.Gen.ReferenceIdeal
import proofs.«145639_j26611617366463_2_alg».proof.Proof.Gen.Pre_finite_inputs
import proofs.«145639_j26611617366463_2_alg».proof.Proof.Gen.ReferenceIdeal.Run
import proofs.«145639_j26611617366463_2_alg».proof.Proof.Gen.ReferenceIdeal.Read
import proofs.«145639_j26611617366463_2_alg».proof.Proof.FrameK
import proofs.«145639_j26611617366463_2_alg».proof.Proof.FrameKI
import proofs.«145639_j26611617366463_2_alg».proof.Proof.FramePostKI
import proofs.«145639_j26611617366463_2_alg».proof.Proof.BlockArray
import proofs.«145639_j26611617366463_2_alg».proof.Proof.Assemble

/-!
# Chebyshev graph convolution (three terms) with a rectifier: the kernel against its reference

Both programs first form, by the same host statements, `T₁ = L̂·x` and `P₁ = L̂·T₁` for the normalised
graph Laplacian `L̂` of the weighted edge list. The reference returns
`max (x·W₀ + T₁·W₁ + (2·P₁ − x)·W₂ + b) 0`. The kernel folds the recurrence into the matrices —
`x·(W₀ − W₂) + T₁·W₁ + P₁·(2·W₂) + b` — and computes that, ten blocks of 5000 rows at a time, in one
pipelined region. The two agree entry by entry by distributivity, valid on the extended reals because
finite inputs keep `T₁` and `P₁` finite (each stage of the shared chain maps finite values to finite
values; the degree normalisation takes a reciprocal square root only of positive degrees).

* The frames of the two kernel programs: the region's run, with the host statements before it.
* The frame of the reference: its run with the result dropped.
* The kernel's idealization rewrote nothing.
* The value claim: the kernel's run leaves `chebOut` of the arrays the region finds (the blocks tile the
  rows), which under the precondition is the reference's result.
-/

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.ReferenceIdeal.Read.val_main_v71 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, Cert.KernelIdeal.Hand.kept_main_arg0 m r h c,
      Cert.KernelIdeal.Hand.kept_main_arg1 m r h c, Cert.KernelIdeal.Hand.kept_main_arg2 m r h c,
      Cert.KernelIdeal.Hand.kept_main_arg3 m r h c, Cert.KernelIdeal.Hand.kept_main_arg4 m r h c⟩)
      (Cert.KernelIdeal.Hand.run_main (F := Ideal) m ρ)
    exact (Cert.KernelIdeal.Hand.post_main_v70 m r h c).trans
      ((Cert.Cheb.final5 m c).trans (Cert.Cheb.kernel_eq_ref m hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v71_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
